-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S_ : Shape := ⟨0, ![]⟩
abbrev S16384x512 : Shape := ⟨2, ![16384, 512]⟩
abbrev S16384x128 : Shape := ⟨2, ![16384, 128]⟩
abbrev S16384x256 : Shape := ⟨2, ![16384, 256]⟩
abbrev S1024x896 : Shape := ⟨2, ![1024, 896]⟩
abbrev S1024 : Shape := ⟨1, ![1024]⟩
abbrev S512x512 : Shape := ⟨2, ![512, 512]⟩
abbrev S512 : Shape := ⟨1, ![512]⟩

class Facts : Prop where
  reducesTo_S_S_d : S_.ReducesTo [] S_
  h_S_ : 0 < S_.numel
  bcast_S_S16384x512 : S_.BroadcastsInDim S16384x512 (![] : Fin 0 → Fin S16384x512.rank)
  reducesTo_S16384x512_S_d0_1 : S16384x512.ReducesTo [0, 1] S_
  bcast_S_S16384x128 : S_.BroadcastsInDim S16384x128 (![] : Fin 0 → Fin S16384x128.rank)
  reducesTo_S16384x128_S_d0_1 : S16384x128.ReducesTo [0, 1] S_
  bcast_S_S16384x256 : S_.BroadcastsInDim S16384x256 (![] : Fin 0 → Fin S16384x256.rank)
  reducesTo_S16384x256_S_d0_1 : S16384x256.ReducesTo [0, 1] S_
  bcast_S_S1024x896 : S_.BroadcastsInDim S1024x896 (![] : Fin 0 → Fin S1024x896.rank)
  reducesTo_S1024x896_S_d0_1 : S1024x896.ReducesTo [0, 1] S_
  bcast_S_S1024 : S_.BroadcastsInDim S1024 (![] : Fin 0 → Fin S1024.rank)
  reducesTo_S1024_S_d0 : S1024.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg8 : FVec F S512 .f32) (main_arg9 : FVec F S512 .f32) (main_v32 : IVec S_ 1) (main_v33 : FVec F S512 .f32) : IVec S_ 1 :=
  let main_cst_12 : FVec F S_ .f32 := constant S_ .f32 0x7F800000#32
  let main_v34 : FVec F S512 .f32 := broadcastInDim S512 ![] bcast_S_S512 main_cst_12
  let main_v35 : IVec S512 1 := cmpf .olt main_v33 main_v34
  let main_c_13 : IVec S_ 1 := constantI S_ 1 1#1
  let main_v36 : IVec S_ 1 := (fun x v => Host.reduce IntOp.andi x v reducesTo_S512_S_d0 h_S_) main_v35 main_c_13
  let main_v37 : IVec S_ 1 := andi main_v32 main_v36
  let main_v38 : FVec F S512 .f32 := Host.absf main_arg8
  let main_cst_14 : FVec F S_ .f32 := constant S_ .f32 0x7F800000#32
  let main_v39 : FVec F S512 .f32 := broadcastInDim S512 ![] bcast_S_S512 main_cst_14
  let main_v40 : IVec S512 1 := cmpf .olt main_v38 main_v39
  let main_c_15 : IVec S_ 1 := constantI S_ 1 1#1
  let main_v41 : IVec S_ 1 := (fun x v => Host.reduce IntOp.andi x v reducesTo_S512_S_d0 h_S_) main_v40 main_c_15
  let main_v42 : IVec S_ 1 := andi main_v37 main_v41
  let main_v43 : FVec F S512 .f32 := Host.absf main_arg9
  let main_cst_16 : FVec F S_ .f32 := constant S_ .f32 0x7F800000#32
  let main_v44 : FVec F S512 .f32 := broadcastInDim S512 ![] bcast_S_S512 main_cst_16
  let main_v45 : IVec S512 1 := cmpf .olt main_v43 main_v44
  let main_c_17 : IVec S_ 1 := constantI S_ 1 1#1
  let main_v46 : IVec S_ 1 := (fun x v => Host.reduce IntOp.andi x v reducesTo_S512_S_d0 h_S_) main_v45 main_c_17
  let main_v47 : IVec S_ 1 := andi main_v42 main_v46
  main_v47

def fn_part1 {F : FTy → Type} [FloatOps F] (main_arg4 : FVec F S1024x896 .f32) (main_arg5 : FVec F S1024 .f32) (main_arg6 : FVec F S512x512 .f32) (main_arg7 : FVec F S512 .f32) (main_arg8 : FVec F S512 .f32) (main_arg9 : FVec F S512 .f32) (main_v12 : IVec S_ 1) (main_v15 : IVec S16384x256 1) (main_c_5 : IVec S_ 1) : IVec S_ 1 :=
  let main_v16 : IVec S_ 1 := (fun x v => Host.reduce IntOp.andi x v reducesTo_S16384x256_S_d0_1 h_S_) main_v15 main_c_5
  let main_v17 : IVec S_ 1 := andi main_v12 main_v16
  let main_v18 : FVec F S1024x896 .f32 := Host.absf main_arg4
  let main_cst_6 : FVec F S_ .f32 := constant S_ .f32 0x7F800000#32
  let main_v19 : FVec F S1024x896 .f32 := broadcastInDim S1024x896 ![] bcast_S_S1024x896 main_cst_6
  let main_v20 : IVec S1024x896 1 := cmpf .olt main_v18 main_v19
  let main_c_7 : IVec S_ 1 := constantI S_ 1 1#1
  let main_v21 : IVec S_ 1 := (fun x v => Host.reduce IntOp.andi x v reducesTo_S1024x896_S_d0_1 h_S_) main_v20 main_c_7
  let main_v22 : IVec S_ 1 := andi main_v17 main_v21
  let main_v23 : FVec F S1024 .f32 := Host.absf main_arg5
  let main_cst_8 : FVec F S_ .f32 := constant S_ .f32 0x7F800000#32
  let main_v24 : FVec F S1024 .f32 := broadcastInDim S1024 ![] bcast_S_S1024 main_cst_8
  let main_v25 : IVec S1024 1 := cmpf .olt main_v23 main_v24
  let main_c_9 : IVec S_ 1 := constantI S_ 1 1#1
  let main_v26 : IVec S_ 1 := (fun x v => Host.reduce IntOp.andi x v reducesTo_S1024_S_d0 h_S_) main_v25 main_c_9
  let main_v27 : IVec S_ 1 := andi main_v22 main_v26
  let main_v28 : FVec F S512x512 .f32 := Host.absf main_arg6
  let main_cst_10 : FVec F S_ .f32 := constant S_ .f32 0x7F800000#32
  let main_v29 : FVec F S512x512 .f32 := broadcastInDim S512x512 ![] bcast_S_S512x512 main_cst_10
  let main_v30 : IVec S512x512 1 := cmpf .olt main_v28 main_v29
  let main_c_11 : IVec S_ 1 := constantI S_ 1 1#1
  let main_v31 : IVec S_ 1 := (fun x v => Host.reduce IntOp.andi x v reducesTo_S512x512_S_d0_1 h_S_) main_v30 main_c_11
  let main_v32 : IVec S_ 1 := andi main_v27 main_v31
  let main_v33 : FVec F S512 .f32 := Host.absf main_arg7
  fn_part2 (F := F) main_arg8 main_arg9 main_v32 main_v33

def fn {F : FTy → Type} [FloatOps F] (main_arg0 : FVec F S_ .f32) (main_arg1 : FVec F S16384x512 .f32) (main_arg2 : FVec F S16384x128 .f32) (main_arg3 : FVec F S16384x256 .f32) (main_arg4 : FVec F S1024x896 .f32) (main_arg5 : FVec F S1024 .f32) (main_arg6 : FVec F S512x512 .f32) (main_arg7 : FVec F S512 .f32) (main_arg8 : FVec F S512 .f32) (main_arg9 : FVec F S512 .f32) : IVec S_ 1 :=
  let main_v0 : FVec F S_ .f32 := Host.absf main_arg0
  let main_cst : FVec F S_ .f32 := constant S_ .f32 0x7F800000#32
  let main_v1 : IVec S_ 1 := cmpf .olt main_v0 main_cst
  let main_c : IVec S_ 1 := constantI S_ 1 1#1
  let main_v2 : IVec S_ 1 := (fun x v => Host.reduce IntOp.andi x v reducesTo_S_S_d h_S_) main_v1 main_c
  let main_v3 : FVec F S16384x512 .f32 := Host.absf main_arg1
  let main_cst_0 : FVec F S_ .f32 := constant S_ .f32 0x7F800000#32
  let main_v4 : FVec F S16384x512 .f32 := broadcastInDim S16384x512 ![] bcast_S_S16384x512 main_cst_0
  let main_v5 : IVec S16384x512 1 := cmpf .olt main_v3 main_v4
  let main_c_1 : IVec S_ 1 := constantI S_ 1 1#1
  let main_v6 : IVec S_ 1 := (fun x v => Host.reduce IntOp.andi x v reducesTo_S16384x512_S_d0_1 h_S_) main_v5 main_c_1
  let main_v7 : IVec S_ 1 := andi main_v2 main_v6
  let main_v8 : FVec F S16384x128 .f32 := Host.absf main_arg2
  let main_cst_2 : FVec F S_ .f32 := constant S_ .f32 0x7F800000#32
  let main_v9 : FVec F S16384x128 .f32 := broadcastInDim S16384x128 ![] bcast_S_S16384x128 main_cst_2
  let main_v10 : IVec S16384x128 1 := cmpf .olt main_v8 main_v9
  let main_c_3 : IVec S_ 1 := constantI S_ 1 1#1
  let main_v11 : IVec S_ 1 := (fun x v => Host.reduce IntOp.andi x v reducesTo_S16384x128_S_d0_1 h_S_) main_v10 main_c_3
  let main_v12 : IVec S_ 1 := andi main_v7 main_v11
  let main_v13 : FVec F S16384x256 .f32 := Host.absf main_arg3
  let main_cst_4 : FVec F S_ .f32 := constant S_ .f32 0x7F800000#32
  let main_v14 : FVec F S16384x256 .f32 := broadcastInDim S16384x256 ![] bcast_S_S16384x256 main_cst_4
  let main_v15 : IVec S16384x256 1 := cmpf .olt main_v13 main_v14
  let main_c_5 : IVec S_ 1 := constantI S_ 1 1#1
  fn_part1 (F := F) main_arg4 main_arg5 main_arg6 main_arg7 main_arg8 main_arg9 main_v12 main_v15 main_c_5
-- ==== Kernel.lean ====
abbrev S_ : Shape := ⟨0, ![]⟩
abbrev S16384x512 : Shape := ⟨2, ![16384, 512]⟩
abbrev S16384x128 : Shape := ⟨2, ![16384, 128]⟩
abbrev S16384x256 : Shape := ⟨2, ![16384, 256]⟩
abbrev S1024x896 : Shape := ⟨2, ![1024, 896]⟩
abbrev S1024 : Shape := ⟨1, ![1024]⟩
abbrev S512x512 : Shape := ⟨2, ![512, 512]⟩
abbrev S512 : Shape := ⟨1, ![512]⟩
abbrev S1024x128 : Shape := ⟨2, ![1024, 128]⟩
abbrev S128x1024 : Shape := ⟨2, ![128, 1024]⟩
abbrev S1024x512 : Shape := ⟨2, ![1024, 512]⟩
abbrev S512x1024 : Shape := ⟨2, ![512, 1024]⟩
abbrev S1024x256 : Shape := ⟨2, ![1024, 256]⟩
abbrev S256x1024 : Shape := ⟨2, ![256, 1024]⟩
abbrev S1x1024 : Shape := ⟨2, ![1, 1024]⟩
abbrev S1x512 : Shape := ⟨2, ![1, 512]⟩
abbrev S1024x1024 : Shape := ⟨2, ![1024, 1024]⟩

abbrev nBuf : Space → Nat
  | .hbm => 22
  | .vmem => 16
  | .smem => 0
  | _ => 0

abbrev bufTy : (tb : Table) → Fin (tcTables nBuf tb) → BufTy
  | .hbm, ⟨0, _⟩ => ⟨S_, .f32⟩
  | .hbm, ⟨1, _⟩ => ⟨S16384x512, .f32⟩
  | .hbm, ⟨2, _⟩ => ⟨S16384x128, .f32⟩
  | .hbm, ⟨3, _⟩ => ⟨S16384x256, .f32⟩
  | .hbm, ⟨4, _⟩ => ⟨S1024x896, .f32⟩
  | .hbm, ⟨5, _⟩ => ⟨S1024, .f32⟩
  | .hbm, ⟨6, _⟩ => ⟨S512x512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S1024x128, .f32⟩
  | .hbm, ⟨11, _⟩ => ⟨S128x1024, .f32⟩
  | .hbm, ⟨12, _⟩ => ⟨S1024x512, .f32⟩
  | .hbm, ⟨13, _⟩ => ⟨S512x1024, .f32⟩
  | .hbm, ⟨14, _⟩ => ⟨S1024x256, .f32⟩
  | .hbm, ⟨15, _⟩ => ⟨S256x1024, .f32⟩
  | .hbm, ⟨16, _⟩ => ⟨S512x512, .f32⟩
  | .hbm, ⟨17, _⟩ => ⟨S1x1024, .f32⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S16384x512, .f32⟩
  | .local _ .vmem, ⟨0, _⟩ => ⟨S1024x128, .f32⟩
  | .local _ .vmem, ⟨1, _⟩ => ⟨S1024x128, .f32⟩
  | .local _ .vmem, ⟨2, _⟩ => ⟨S1024x512, .f32⟩
  | .local _ .vmem, ⟨3, _⟩ => ⟨S1024x512, .f32⟩
  | .local _ .vmem, ⟨4, _⟩ => ⟨S1024x256, .f32⟩
  | .local _ .vmem, ⟨5, _⟩ => ⟨S1024x256, .f32⟩
  | .local _ .vmem, ⟨6, _⟩ => ⟨S128x1024, .f32⟩
  | .local _ .vmem, ⟨7, _⟩ => ⟨S512x1024, .f32⟩
  | .local _ .vmem, ⟨8, _⟩ => ⟨S256x1024, .f32⟩
  | .local _ .vmem, ⟨9, _⟩ => ⟨S1x1024, .f32⟩
  | .local _ .vmem, ⟨10, _⟩ => ⟨S512x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1024x512, .f32⟩
  | .local _ .vmem, ⟨15, _⟩ => ⟨S1024x512, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S1024x896_S1024x128_0_0 : S1024x896.Slices ![0, 0] S1024x128
  transposes_S1024x128_S128x1024_1_0 : S1024x128.Transposes [1, 0] S128x1024
  slices_S1024x896_S1024x512_0_128 : S1024x896.Slices ![0, 128] S1024x512
  transposes_S1024x512_S512x1024_1_0 : S1024x512.Transposes [1, 0] S512x1024
  slices_S1024x896_S1024x256_0_640 : S1024x896.Slices ![0, 640] S1024x256
  transposes_S1024x256_S256x1024_1_0 : S1024x256.Transposes [1, 0] S256x1024
  transposes_S512x512_S512x512_1_0 : S512x512.Transposes [1, 0] S512x512
  shapeCasts_S1024_S1x1024 : S1024.ShapeCasts S1x1024
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x1024_S1024x1024 : S1x1024.Broadcasts S1024x1024
  slices_S1024x1024_o0_0_S1024x512 : S1024x1024.Slices ![0, 0] S1024x512
  slices_S1024x1024_o0_512_S1024x512 : S1024x1024.Slices ![0, 512] S1024x512
  broadcasts_S1x512_S1024x512 : S1x512.Broadcasts S1024x512
  dot_S1024x128_S128x1024_S1024x1024_1_0_0_1_n_n_wf : DotDims.WF S1024x128 S128x1024 S1024x1024 [1] [0] [0] [1] [] []
  dot_S1024x512_S512x1024_S1024x1024_1_0_0_1_n_n_wf : DotDims.WF S1024x512 S512x1024 S1024x1024 [1] [0] [0] [1] [] []
  dot_S1024x256_S256x1024_S1024x1024_1_0_0_1_n_n_wf : DotDims.WF S1024x256 S256x1024 S1024x1024 [1] [0] [0] [1] [] []
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S16384x128.size a
  hwx0_0 : ∀ i : grid0.Coords, EltTy.bits .f32 = 32 ∨ (Rect.block (s := S16384x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x512.size a
  hwx0_1 : ∀ i : grid0.Coords, EltTy.bits .f32 = 32 ∨ (Rect.block (s := S16384x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S16384x256.size a
  hwx0_2 : ∀ i : grid0.Coords, EltTy.bits .f32 = 32 ∨ (Rect.block (s := S16384x256) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S128x1024.size a
  hwx0_3 : ∀ i : grid0.Coords, EltTy.bits .f32 = 32 ∨ (Rect.block (s := S128x1024) S128x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S512x1024.size a
  hwx0_4 : ∀ i : grid0.Coords, EltTy.bits .f32 = 32 ∨ (Rect.block (s := S512x1024) S512x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S256x1024.size a
  hwx0_5 : ∀ i : grid0.Coords, EltTy.bits .f32 = 32 ∨ (Rect.block (s := S256x1024) S256x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .f32 = 32 ∨ (Rect.block (s := S512x512) S512x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x512.size a ≤ S16384x512.size a
  hwx0_11 : ∀ i : grid0.Coords, EltTy.bits .f32 = 32 ∨ (Rect.block (s := S16384x512) S1024x512.size (cc0_transform_11 i) (hinb0_11 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg2) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S256x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S1024x512.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S_ : Shape := ⟨0, ![]⟩
abbrev S16384x512 : Shape := ⟨2, ![16384, 512]⟩
abbrev S16384x128 : Shape := ⟨2, ![16384, 128]⟩
abbrev S16384x256 : Shape := ⟨2, ![16384, 256]⟩
abbrev S1024x896 : Shape := ⟨2, ![1024, 896]⟩
abbrev S1024 : Shape := ⟨1, ![1024]⟩
abbrev S512x512 : Shape := ⟨2, ![512, 512]⟩
abbrev S512 : Shape := ⟨1, ![512]⟩
abbrev S16384x896 : Shape := ⟨2, ![16384, 896]⟩
abbrev S896x1024 : Shape := ⟨2, ![896, 1024]⟩
abbrev S16384x1024 : Shape := ⟨2, ![16384, 1024]⟩
abbrev S1x1024 : Shape := ⟨2, ![1, 1024]⟩
abbrev S1x512 : Shape := ⟨2, ![1, 512]⟩

abbrev nBuf : Space → Nat
  | .hbm => 86
  | .vmem => 0
  | .smem => 0
  | _ => 0

abbrev bufTy : (tb : Table) → Fin (tcTables nBuf tb) → BufTy
  | .hbm, ⟨0, _⟩ => ⟨S_, .f32⟩
  | .hbm, ⟨1, _⟩ => ⟨S16384x512, .f32⟩
  | .hbm, ⟨2, _⟩ => ⟨S16384x128, .f32⟩
  | .hbm, ⟨3, _⟩ => ⟨S16384x256, .f32⟩
  | .hbm, ⟨4, _⟩ => ⟨S1024x896, .f32⟩
  | .hbm, ⟨5, _⟩ => ⟨S1024, .f32⟩
  | .hbm, ⟨6, _⟩ => ⟨S512x512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S16384x896, .f32⟩
  | .hbm, ⟨11, _⟩ => ⟨S896x1024, .f32⟩
  | .hbm, ⟨12, _⟩ => ⟨S16384x1024, .f32⟩
  | .hbm, ⟨13, _⟩ => ⟨S1x1024, .f32⟩
  | .hbm, ⟨14, _⟩ => ⟨S16384x1024, .f32⟩
  | .hbm, ⟨15, _⟩ => ⟨S16384x1024, .f32⟩
  | .hbm, ⟨16, _⟩ => ⟨S16384x512, .f32⟩
  | .hbm, ⟨17, _⟩ => ⟨S16384x512, .f32⟩
  | .hbm, ⟨18, _⟩ => ⟨S512x512, .f32⟩
  | .hbm, ⟨19, _⟩ => ⟨S16384x512, .f32⟩
  | .hbm, ⟨20, _⟩ => ⟨S1x512, .f32⟩
  | .hbm, ⟨21, _⟩ => ⟨S16384x512, .f32⟩
  | .hbm, ⟨22, _⟩ => ⟨S16384x512, .f32⟩
  | .hbm, ⟨23, _⟩ => ⟨S_, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S16384x512, .i1⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S16384x512, .f32⟩
  | .hbm, ⟨38, _⟩ => ⟨S16384x512, .f32⟩
  | .hbm, ⟨39, _⟩ => ⟨S_, .f32⟩
  | .hbm, ⟨40, _⟩ => ⟨S16384x512, .f32⟩
  | .hbm, ⟨41, _⟩ => ⟨S16384x512, .f32⟩
  | .hbm, ⟨42, _⟩ => ⟨S_, .f32⟩
  | .hbm, ⟨43, _⟩ => ⟨S16384x512, .f32⟩
  | .hbm, ⟨44, _⟩ => ⟨S16384x512, .f32⟩
  | .hbm, ⟨45, _⟩ => ⟨S16384x512, .f32⟩
  | .hbm, ⟨46, _⟩ => ⟨S16384x512, .f32⟩
  | .hbm, ⟨47, _⟩ => ⟨S16384x512, .f32⟩
  | .hbm, ⟨48, _⟩ => ⟨S_, .f32⟩
  | .hbm, ⟨49, _⟩ => ⟨S512, .f32⟩
  | .hbm, ⟨50, _⟩ => ⟨S512, .f32⟩
  | .hbm, ⟨51, _⟩ => ⟨S512, .f32⟩
  | .hbm, ⟨52, _⟩ => ⟨S512, .f32⟩
  | .hbm, ⟨53, _⟩ => ⟨S512, .i1⟩
  | .hbm, ⟨54, _⟩ => ⟨S512, .f32⟩
  | .hbm, ⟨55, _⟩ => ⟨S512, .f32⟩
  | .hbm, ⟨56, _⟩ => ⟨S512, .f32⟩
  | .hbm, ⟨57, _⟩ => ⟨S512, .f32⟩
  | .hbm, ⟨58, _⟩ => ⟨S512, .f32⟩
  | .hbm, ⟨59, _⟩ => ⟨S512, .f32⟩
  | .hbm, ⟨60, _⟩ => ⟨S512, .f32⟩
  | .hbm, ⟨61, _⟩ => ⟨S512, .f32⟩
  | .hbm, ⟨62, _⟩ => ⟨S1x512, .f32⟩
  | .hbm, ⟨63, _⟩ => ⟨S16384x512, .f32⟩
  | .hbm, ⟨64, _⟩ => ⟨S16384x512, .f32⟩
  | .hbm, ⟨65, _⟩ => ⟨S_, .f32⟩
  | .hbm, ⟨66, _⟩ => ⟨S512, .f32⟩
  | .hbm, ⟨67, _⟩ => ⟨S512, .f32⟩
  | .hbm, ⟨68, _⟩ => ⟨S512, .f32⟩
  | .hbm, ⟨69, _⟩ => ⟨S512, .f32⟩
  | .hbm, ⟨70, _⟩ => ⟨S512, .i1⟩
  | .hbm, ⟨71, _⟩ => ⟨S512, .f32⟩
  | .hbm, ⟨72, _⟩ => ⟨S512, .f32⟩
  | .hbm, ⟨73, _⟩ => ⟨S512, .f32⟩
  | .hbm, ⟨74, _⟩ => ⟨S512, .f32⟩
  | .hbm, ⟨75, _⟩ => ⟨S512, .f32⟩
  | .hbm, ⟨76, _⟩ => ⟨S512, .f32⟩
  | .hbm, ⟨77, _⟩ => ⟨S512, .f32⟩
  | .hbm, ⟨78, _⟩ => ⟨S512, .f32⟩
  | .hbm, ⟨79, _⟩ => ⟨S1x512, .f32⟩
  | .hbm, ⟨80, _⟩ => ⟨S16384x512, .f32⟩
  | .hbm, ⟨81, _⟩ => ⟨S16384x512, .f32⟩
  | .hbm, ⟨82, _⟩ => ⟨S_, .f32⟩
  | .hbm, ⟨83, _⟩ => ⟨S16384x512, .f32⟩
  | .hbm, ⟨84, _⟩ => ⟨S16384x512, .f32⟩
  | .hbm, ⟨85, _⟩ => ⟨S16384x512, .f32⟩
  | _, _ => ⟨S_, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst : Ref sig .tc := ⟨.hbm, 39, rfl⟩
abbrev main_v16 : Ref sig .tc := ⟨.hbm, 40, rfl⟩
abbrev main_v17 : Ref sig .tc := ⟨.hbm, 41, rfl⟩
abbrev main_cst_0 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_call1_cst : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_call2_cst : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_cst_1 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩

abbrev nD : Nat := 1
abbrev τ : Topo := Topo.v7x

variable {F : FTy → Type} [FloatOps F]

class Facts₀ : Prop where
  concatenates_S16384x128_S16384x512_S16384x256_S16384x896_d1 : Shape.Concatenates [S16384x128, S16384x512, S16384x256] S16384x896 1
  transposes_S1024x896_S896x1024_1_0 : S1024x896.Transposes [1, 0] S896x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  slices_S16384x1024_S16384x512_0_0 : S16384x1024.Slices ![0, 0] S16384x512
  slices_S16384x1024_S16384x512_0_512 : S16384x1024.Slices ![0, 512] S16384x512
  transposes_S512x512_S512x512_1_0 : S512x512.Transposes [1, 0] S512x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  bcast_S_S512 : S_.BroadcastsInDim S512 (![] : Fin 0 → Fin S512.rank)
  dot_S16384x896_S896x1024_S16384x1024_1_0_0_1_n_n_wf : DotDims.WF S16384x896 S896x1024 S16384x1024 [1] [0] [0] [1] [] []
  dot_S16384x512_S512x512_S16384x512_1_0_0_1_n_n_wf : DotDims.WF S16384x512 S512x512 S16384x512 [1] [0] [0] [1] [] []

variable [Facts₀]

def dot_S16384x896_S896x1024_S16384x1024_1_0_0_1_n_n : DotDims S16384x896 S896x1024 S16384x1024 where
  lhsContracting := [1]
  rhsContracting := [0]
  lhsNonContracting := [0]
  rhsNonContracting := [1]
  lhsBatch := []
  rhsBatch := []
  wf := dot_S16384x896_S896x1024_S16384x1024_1_0_0_1_n_n_wf
def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf

class Facts : Prop extends Facts₀ where

variable [Facts]
-- ==== Proof.LtcSpec.lean ====
/-
  The cell's arithmetic, stated once on the extended reals with no program in sight.

  One batch row `r` and one hidden unit `q`.  The input row is the three pieces `x` (128 wide), `h` (512 wide) and
  the context `cx` (256 wide) laid side by side; the weight matrix `W` has one row of 896 entries per output unit,
  so the pre-activation of output unit `n` is

      gd r n = (∑ k<128, x r k · W n k) + (∑ k<512, h r k · W n (128+k)) + (∑ k<256, cx r k · W n (640+k)) + b n,

  a sum over all 896 columns taken piece by piece.  The time constant's pre-activation is
  `tl r q = (∑ k<512, h r k · Wt q k) + bt q`.  The cell's value is

      (σ(gd r q) · tanh(gd r (512+q)) − h r q) / (softplus(tl r q) + softplus(cm q) + softplus(gl q) + ε),

  with `softplus y = max y 0 + log(1 + exp(−|y − 0|))` behind a guard `y − 0 ≠ y − 0` that selects `y + 0` instead
  (a test that is never true of an extended real; it is kept as written, so nothing has to be said about it).

  The one law of arithmetic used anywhere is `sum_three_pieces`: a sum over 896 indices is the sum over its first
  128, its next 512 and its last 256.  Addition of extended reals is commutative and associative, so this holds at the
  infinities too and no finiteness is needed.
-/
import Idealize.ShloMosaic.PureOps.Ideal
import Idealize.ShloMosaic.PureOps.Ideal.Laws
import Idealize.ShloMosaic.Lib.ValueIdx

noncomputable section

open scoped BigOperators

namespace Cert.Ltc

open Idealize.ShloMosaic Idealize.ShloMosaic.ValueIdx

/-- A rank-2 array of extended reals. -/
abbrev Arr2 (a b : Nat) : Type := (⟨2, ![a, b]⟩ : Shape).Idx → EReal
/-- A rank-1 array of extended reals. -/
abbrev Arr1 (a : Nat) : Type := (⟨1, ![a]⟩ : Shape).Idx → EReal

/-! ## Columns of the 896-wide weight row, piece by piece -/

/-- Column `k` of the first piece (the input's 128 columns). -/
abbrev colX (k : Fin 128) : Fin 896 := ⟨k.val, by have := k.isLt; omega⟩
/-- Column `128 + k` : the hidden state's 512 columns. -/
abbrev colH (k : Fin 512) : Fin 896 := ⟨128 + k.val, by have := k.isLt; omega⟩
/-- Column `640 + k` : the context's 256 columns. -/
abbrev colC (k : Fin 256) : Fin 896 := ⟨640 + k.val, by have := k.isLt; omega⟩

/-- Output unit `q` of the first half (the one the sigmoid takes). -/
abbrev unitLo (q : Fin 512) : Fin 1024 := ⟨q.val, by have := q.isLt; omega⟩
/-- Output unit `512 + q` of the second half (the one the hyperbolic tangent takes). -/
abbrev unitHi (q : Fin 512) : Fin 1024 := ⟨512 + q.val, by have := q.isLt; omega⟩

/-- A sum over 896 indices, taken as its first 128, next 512 and last 256 terms. -/
theorem sum_three_pieces (f : Fin 896 → EReal) :
    ∑ k : Fin 896, f k = ((∑ k : Fin 128, f (colX k)) + ∑ k : Fin 512, f (colH k)) + ∑ k : Fin 256, f (colC k) := by
  have h1 : ∑ k : Fin 896, f k = (∑ k : Fin 640, f ⟨k.val, by have := k.isLt; omega⟩) + ∑ k : Fin 256, f (colC k) := by
    refine (Fin.sum_univ_add (a := 640) (b := 256) (f : Fin (640 + 256) → EReal)).trans ?_
    rfl
  have h2 : (∑ k : Fin 640, f ⟨k.val, by have := k.isLt; omega⟩) = (∑ k : Fin 128, f (colX k)) + ∑ k : Fin 512, f (colH k) := by
    refine (Fin.sum_univ_add (a := 128) (b := 512) (fun k : Fin (128 + 512) => f ⟨k.val, by have := k.isLt; omega⟩)).trans ?_
    rfl
  rw [h1, h2]

/-! ## softplus, as both programs spell it -/

/-- `max y 0 + log (1 + exp (−|y − 0|))`, with `|d| = max d (−d)`, selected unless `y − 0 ≠ y − 0`. -/
def softplus (y : EReal) : EReal :=
  Scalar.select (Ideal.cmp .une (y - 0) (y - 0)) (y + 0)
    (max y 0 + Ideal.log1p (Ideal.exp (-(max (y - 0) (-(y - 0))))))

/-- The spelling with `0 − |d|` for the negation and the ordered comparison for the guard is the same number:
    `0 − a = −a`, and the two comparisons are one on a linear order. -/
theorem softplus_zero_sub (y : EReal) :
    Scalar.select (Ideal.cmp .one (y - 0) (y - 0)) (y + 0)
      (max y 0 + Ideal.log1p (Ideal.exp (0 - (max (y - 0) (-(y - 0)))))) = softplus y := by
  unfold softplus
  rw [zero_sub]
  rfl

/-- softplus as the host program writes it (negation as an operation of its own, the unordered comparison for the
    guard) over the zero word: the zero word is `0`, and every operation is the extended reals' own. -/
theorem softplus_host (y : Ideal .f32) :
    Scalar.select
        (FloatOps.cmpf .une (FloatOps.subf y (FloatOps.ofBits (F := Ideal) .f32 0x00000000#32))
          (FloatOps.subf y (FloatOps.ofBits (F := Ideal) .f32 0x00000000#32)))
        (FloatOps.addf y (FloatOps.ofBits (F := Ideal) .f32 0x00000000#32))
        (FloatOps.addf (FloatOps.maximumf y (FloatOps.ofBits (F := Ideal) .f32 0x00000000#32))
          (FloatOps.hostUnary .log1p (FloatOps.hostUnary .exp (FloatOps.hostNegf (FloatOps.hostAbsf
            (FloatOps.subf y (FloatOps.ofBits (F := Ideal) .f32 0x00000000#32)))))))
      = softplus y := by
  show Scalar.select (Ideal.cmp .une (y - Ideal.ofBits .f32 0x00000000#32) (y - Ideal.ofBits .f32 0x00000000#32))
      (y + Ideal.ofBits .f32 0x00000000#32)
      (max y (Ideal.ofBits .f32 0x00000000#32) + Ideal.log1p (Ideal.exp (-(max (y - Ideal.ofBits .f32 0x00000000#32)
        (-(y - Ideal.ofBits .f32 0x00000000#32)))))) = softplus y
  rw [Ideal.ofBits_zero_f32]
  rfl

/-- softplus as the vector unit's program writes it (`0 − |d|` for the negation, the ordered comparison for the
    guard) over the zero word. -/
theorem softplus_vector (y : Ideal .f32) :
    Scalar.select
        (FloatOps.cmpf .one (FloatOps.subf y (Scalar.ofBits (F := Ideal) .f32 0x00000000#32))
          (FloatOps.subf y (Scalar.ofBits (F := Ideal) .f32 0x00000000#32)))
        (FloatOps.addf y (Scalar.ofBits (F := Ideal) .f32 0x00000000#32))
        (FloatOps.addf (FloatOps.maximumf y (Scalar.ofBits (F := Ideal) .f32 0x00000000#32))
          (FloatOps.log1p (FloatOps.exp (FloatOps.subf (Scalar.ofBits (F := Ideal) .f32 0x00000000#32)
            (FloatOps.absf (FloatOps.subf y (Scalar.ofBits (F := Ideal) .f32 0x00000000#32)))))))
      = softplus y := by
  show Scalar.select (Ideal.cmp .one (y - Ideal.ofBits .f32 0x00000000#32) (y - Ideal.ofBits .f32 0x00000000#32))
      (y + Ideal.ofBits .f32 0x00000000#32)
      (max y (Ideal.ofBits .f32 0x00000000#32) + Ideal.log1p (Ideal.exp (Ideal.ofBits .f32 0x00000000#32 -
        (max (y - Ideal.ofBits .f32 0x00000000#32) (-(y - Ideal.ofBits .f32 0x00000000#32)))))) = softplus y
  rw [Ideal.ofBits_zero_f32]
  exact softplus_zero_sub y

/-- The logistic function is the quotient the host program spells out: `1 / (1 + exp (−y))` with the word of `1.0`. -/
theorem logistic_host (y : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf y)))
      = Ideal.logistic y := by
  show Ideal.div (Ideal.ofBits .f32 0x3F800000#32) (Ideal.ofBits .f32 0x3F800000#32 + Ideal.exp (-y)) = Ideal.div 1 (1 + Ideal.exp (-y))
  have h1 : Ideal.ofBits .f32 0x3F800000#32 = 1 := IdealRules.sign_bit.ideal_onePat .f32
  rw [h1]

/-! ## The two pre-activations and the cell -/

section Cell
variable (h : Arr2 16384 512) (x : Arr2 16384 128) (cx : Arr2 16384 256)
  (W : Arr2 1024 896) (b : Arr1 1024) (Wt : Arr2 512 512) (bt gl cm : Arr1 512)

/-- Pre-activation of output unit `n` on batch row `r`: the 896-column inner product piece by piece, plus the bias. -/
def gd (r : Fin 16384) (n : Fin 1024) : EReal :=
  (((∑ k : Fin 128, x (ix2 r k) * W (ix2 n (colX k))) + ∑ k : Fin 512, h (ix2 r k) * W (ix2 n (colH k)))
    + ∑ k : Fin 256, cx (ix2 r k) * W (ix2 n (colC k))) + b (ix1 n)

/-- Pre-activation of the time constant of hidden unit `q` on batch row `r`. -/
def tl (r : Fin 16384) (q : Fin 512) : EReal :=
  (∑ k : Fin 512, h (ix2 r k) * Wt (ix2 q k)) + bt (ix1 q)

/-- The cell's value at row `r`, hidden unit `q`. -/
def cellAt (r : Fin 16384) (q : Fin 512) : EReal :=
  Ideal.div
    (Ideal.logistic (gd h x cx W b r (unitLo q)) * Ideal.tanh (gd h x cx W b r (unitHi q)) - h (ix2 r q))
    (((softplus (tl h Wt bt r q) + softplus (cm (ix1 q))) + softplus (gl (ix1 q)))
      + Ideal.ofBits .f32 0x358637BD#32)

/-- The whole result array. -/
def cell : Arr2 16384 512 := fun i => cellAt h x cx W b Wt bt gl cm (i 0) (i 1)

theorem cell_ix2 (r : Fin 16384) (q : Fin 512) :
    cell h x cx W b Wt bt gl cm (ix2 r q) = cellAt h x cx W b Wt bt gl cm r q := rfl

end Cell

end Cert.Ltc

end
-- ==== Proof.LtcRef.lean ====
/-
  The reference program computes the cell.

  Its result is read one operation at a time (the generated readings of its run), and at a batch row `r` and a
  hidden unit `q` each stage is the corresponding term of the cell's arithmetic:

  * the joined row `[x | h | cx]` read at column `k` is `x` for `k < 128`, `h` at `k − 128` for the next 512 columns,
    `cx` at `k − 640` for the last 256 — so the inner product with row `n` of the weight matrix (the host multiplies by
    the transpose, whose entry `(k, n)` is the matrix's `(n, k)`) is a sum over 896 columns whose three stretches are
    the three piecewise inner products (`sum_three_pieces`);
  * the bias vector, made a one-row matrix and repeated down the rows, read at `(r, n)` is `b n`;
  * the two halves of the 1024 pre-activations are units `q` and `512 + q`;
  * the sigmoid is spelt `1 / (1 + exp (−·))`, which is the logistic function by definition;
  * each softplus is the host's spelling of it.
-/
import proofs.«144077_j28389733827178_1_alg».proof.Proof.Gen.ReferenceIdeal.Read
import proofs.«144077_j28389733827178_1_alg».proof.Proof.LtcSpec
import Idealize.ShloMosaic.Lib.Pipeline.Value

noncomputable section

open scoped BigOperators

namespace Cert.Ltc.Ref

open Cert.ReferenceIdeal Cert.ReferenceIdeal.Read Idealize.ShloMosaic Idealize.ShloMosaic.ValueIdx Cert.Ltc

variable (x1 : (⟨S16384x512, .f32⟩ : BufTy).Contents (Elt Ideal)) (x2 : (⟨S16384x128, .f32⟩ : BufTy).Contents (Elt Ideal))
  (x3 : (⟨S16384x256, .f32⟩ : BufTy).Contents (Elt Ideal)) (x4 : (⟨S1024x896, .f32⟩ : BufTy).Contents (Elt Ideal))
  (x5 : (⟨S1024, .f32⟩ : BufTy).Contents (Elt Ideal)) (x6 : (⟨S512x512, .f32⟩ : BufTy).Contents (Elt Ideal))
  (x7 x8 x9 : (⟨S512, .f32⟩ : BufTy).Contents (Elt Ideal))

/-! ## The joined row, column by column -/

/-- In the first 128 columns the joined row is `x`. -/
theorem joined_x (r : Fin 16384) (k : Fin 128) :
    val_main_v0 (F := Ideal) x1 x2 x3 (ix2 r (colX k)) = x2 (ix2 r k) := by
  unfold val_main_v0
  refine concatenate_apply_piece (t := S16384x896) 1 _ _ (ix2 r (colX k)) 0 (by show (0 : ℕ) < 3; omega) S16384x128 x2 rfl rfl 0 rfl (ix2 r k) ?_ ?_
  · intro b hb
    match b with
    | ⟨0, _⟩ => rfl
    | ⟨1, _⟩ => exact absurd rfl hb
  · show 0 + k.val = k.val
    omega

/-- In the next 512 columns it is `h`. -/
theorem joined_h (r : Fin 16384) (k : Fin 512) :
    val_main_v0 (F := Ideal) x1 x2 x3 (ix2 r (colH k)) = x1 (ix2 r k) := by
  unfold val_main_v0
  refine concatenate_apply_piece (t := S16384x896) 1 _ _ (ix2 r (colH k)) 1 (by show (1 : ℕ) < 3; omega) S16384x512 x1 rfl rfl 128 rfl (ix2 r k) ?_ ?_
  · intro b hb
    match b with
    | ⟨0, _⟩ => rfl
    | ⟨1, _⟩ => exact absurd rfl hb
  · show 128 + k.val = 128 + k.val
    rfl

/-- In the last 256 columns it is the context. -/
theorem joined_c (r : Fin 16384) (k : Fin 256) :
    val_main_v0 (F := Ideal) x1 x2 x3 (ix2 r (colC k)) = x3 (ix2 r k) := by
  unfold val_main_v0
  refine concatenate_apply_piece (t := S16384x896) 1 _ _ (ix2 r (colC k)) 2 (by show (2 : ℕ) < 3; omega) S16384x256 x3 rfl rfl 640 rfl (ix2 r k) ?_ ?_
  · intro b hb
    match b with
    | ⟨0, _⟩ => rfl
    | ⟨1, _⟩ => exact absurd rfl hb
  · show 640 + k.val = 640 + k.val
    rfl

/-! ## The pre-activations -/

/-- Where the product reads the joined row: row `r`, column `k`. -/
theorem lidx_v2 (r : Fin 16384) (n : Fin 1024) (k : Fin 896) : lidx_main_v2 (ix2 r n) k = ix2 r k := by
  funext a; match a with | ⟨0, _⟩ => rfl | ⟨1, _⟩ => rfl

/-- Where it reads the weights: the transpose's `(k, n)` is the matrix's `(n, k)`. -/
theorem ridx_v2 (r : Fin 16384) (n : Fin 1024) (k : Fin 896) : idx_main_v1 (ridx_main_v2 (ix2 r n) k) = ix2 n k := by
  funext a; match a with | ⟨0, _⟩ => rfl | ⟨1, _⟩ => rfl

/-- The 1024 pre-activations of row `r`: the host's product of the joined row with the transposed weights, plus the
    bias row, is `gd`. -/
theorem pre_gd (r : Fin 16384) (n : Fin 1024) :
    val_main_v5 (F := Ideal) x1 x2 x3 x4 x5 (ix2 r n) = gd x1 x2 x3 x4 x5 r n := by
  rw [val_main_v5_apply, val_main_v2_apply, val_main_v4_apply, val_main_v3_apply, sum_three_pieces]
  unfold gd
  show (((_ : EReal) + _) + _) + _ = _
  refine congrArg₂ (· + ·) (congrArg₂ (· + ·) (congrArg₂ (· + ·) ?_ ?_) ?_) ?_
  · refine Finset.sum_congr rfl fun k _ => ?_
    rw [lidx_v2, val_main_v1_apply, ridx_v2, joined_x]
  · refine Finset.sum_congr rfl fun k _ => ?_
    rw [lidx_v2, val_main_v1_apply, ridx_v2, joined_h]
  · refine Finset.sum_congr rfl fun k _ => ?_
    rw [lidx_v2, val_main_v1_apply, ridx_v2, joined_c]
  · refine congrArg x5 ?_
    funext a; match a with | ⟨0, _⟩ => rfl

/-- The time constant's pre-activation: the product of `h` with the transposed `Wt`, plus the bias row, is `tl`. -/
theorem pre_tl (r : Fin 16384) (q : Fin 512) :
    val_main_v12 (F := Ideal) x1 x6 x7 (ix2 r q) = tl x1 x6 x7 r q := by
  rw [val_main_v12_apply, val_main_v9_apply, val_main_v11_apply, val_main_v10_apply]
  unfold tl
  show (_ : EReal) + _ = _
  refine congrArg₂ (· + ·) ?_ ?_
  · refine Finset.sum_congr rfl fun k _ => ?_
    rw [val_main_v8_apply]
    refine congrArg₂ (· * ·) (congrArg x1 ?_) (congrArg x6 ?_)
    · funext a; match a with | ⟨0, _⟩ => rfl | ⟨1, _⟩ => rfl
    · funext a; match a with | ⟨0, _⟩ => rfl | ⟨1, _⟩ => rfl
  · refine congrArg x7 ?_
    funext a; match a with | ⟨0, _⟩ => rfl

/-! ## The three softplus terms -/

/-- softplus of the time constant's pre-activation. -/
theorem sp_tau (r : Fin 16384) (q : Fin 512) :
    val_main_v13 (F := Ideal) x1 x6 x7 (ix2 r q) = softplus (tl x1 x6 x7 r q) := by
  rw [← pre_tl]
  exact softplus_host _

/-- softplus of a length-512 vector, made a row and repeated down the rows, read at `(r, q)`. -/
theorem sp_cm (r : Fin 16384) (q : Fin 512) :
    val_main_v25 (F := Ideal) x9 (ix2 r q) = softplus (x9 (ix1 q)) := by
  rw [val_main_v25_apply, val_main_v24_apply]
  have e : idx_main_v24 (idx_main_v25 (ix2 r q)) = ix1 q := by
    funext a; match a with | ⟨0, _⟩ => rfl
  rw [e]
  exact softplus_host _

theorem sp_gl (r : Fin 16384) (q : Fin 512) :
    val_main_v29 (F := Ideal) x8 (ix2 r q) = softplus (x8 (ix1 q)) := by
  rw [val_main_v29_apply, val_main_v28_apply]
  have e : idx_main_v28 (idx_main_v29 (ix2 r q)) = ix1 q := by
    funext a; match a with | ⟨0, _⟩ => rfl
  rw [e]
  exact softplus_host _

/-! ## The numerator -/

theorem half_lo (r : Fin 16384) (q : Fin 512) : idx_main_v6 (ix2 r q) = ix2 r (unitLo q) := by
  funext a; match a with | ⟨0, _⟩ => rfl | ⟨1, _⟩ => rfl

theorem half_hi (r : Fin 16384) (q : Fin 512) : idx_main_v7 (ix2 r q) = ix2 r (unitHi q) := by
  funext a; match a with | ⟨0, _⟩ => rfl | ⟨1, _⟩ => rfl

/-- `σ(first half) · tanh(second half) − h`. -/
theorem numerator (r : Fin 16384) (q : Fin 512) :
    val_main_v22 (F := Ideal) x1 x2 x3 x4 x5 (ix2 r q)
      = Ideal.logistic (gd x1 x2 x3 x4 x5 r (unitLo q)) * Ideal.tanh (gd x1 x2 x3 x4 x5 r (unitHi q)) - x1 (ix2 r q) := by
  rw [val_main_v22_apply, val_main_v21_apply, val_main_v19_apply, val_main_v20_apply, val_main_v17_apply,
    val_main_v15_apply, val_main_v14_apply, val_main_v6_apply, val_main_v7_apply, half_lo, half_hi, pre_gd, pre_gd]
  show (_ : EReal) * _ - _ = _
  refine congrArg₂ (· - ·) (congrArg₂ (· * ·) ?_ rfl) rfl
  exact logistic_host _

/-! ## The result -/

/-- The reference's result array is the cell. -/
theorem result_eq :
    val_main_v33 (F := Ideal) x1 x2 x3 x4 x5 x6 x7 x8 x9 = cell x1 x2 x3 x4 x5 x6 x7 x8 x9 := by
  funext j
  obtain ⟨r, q, rfl⟩ : ∃ (r : Fin 16384) (q : Fin 512), j = ix2 r q := ⟨j 0, j 1, eq_ix2 j⟩
  rw [cell_ix2, val_main_v33_apply, val_main_v32_apply, val_main_v30_apply, val_main_v26_apply, numerator, sp_tau, sp_cm, sp_gl]
  rfl

end Cert.Ltc.Ref

end
-- ==== Proof.LibDenseEntry.lean ====
/-
  The plain matrix product [M, K] × [K, N] → [M, N] over the extended reals, read at an entry, for any extents and
  any dimension record with the plain axis lists: entry (p, n) is ∑ k, l (p, k) · r (k, n) — for the matrix unit's
  product into an accumulator that is zero everywhere, and for the host's product.
-/
import Idealize.ShloMosaic.PureOps.Ideal.Laws
import Idealize.ShloMosaic.Lib.ValueIdx

noncomputable section

namespace Cert.LibDenseEntry

open Idealize.ShloMosaic Idealize.ShloMosaic.ValueIdx

variable {M K N : ℕ}

/-- [M, K] × [K, N] → [M, N], the left operand's second axis contracted with the right operand's first:
    entry (p, n) is ∑ k, l (p, k) · r (k, n). -/
theorem matmul_plain_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![M, K]⟩ φ₁) (r : FVec Ideal ⟨2, ![K, N]⟩ φ₂) (p : Fin M) (n : Fin N) :
    FloatOps.matmul d prec l r (constant ⟨2, ![M, N]⟩ .f32 0x00000000#32) (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.matmul_constant_zero_apply d prec l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

/-- The host's product of the same shape, read the same way. -/
theorem dotGeneral_plain_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule)
    (l : FVec Ideal ⟨2, ![M, K]⟩ φ₁) (r : FVec Ideal ⟨2, ![K, N]⟩ φ₂) (p : Fin M) (n : Fin N) :
    FloatOps.dotGeneral d prec sched l r (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.dotGeneral_apply d prec sched l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

end Cert.LibDenseEntry

end
-- ==== Proof.LtcBlock.lean ====
/-
  One block of the kernel, entry by entry.

  At a grid point the body holds a 1024-row block of `x`, `h` and the context, and the whole of the three transposed
  weight pieces, the transposed `Wt` and the four bias rows.  The 1024 × 1024 pre-activation block is three
  matrix-unit products into zero, added, plus the bias row repeated down the rows: at entry `(p, n)` this is the
  three inner products over 128, 512 and 256 columns plus the bias at `n` (`pre_block`).  The denominator's first
  two terms are the softplus of `h · Wtᵀ + bt` at `(p, q)` plus the softplus of a bias row at `q` (`tau_block`).
  The stored value at `(p, q)` puts these together: units `q` and `512 + q` of the pre-activation for the sigmoid and
  the hyperbolic tangent (`out_block`).  Changing the float format on the way into the matrix unit is the identity on
  extended reals, and a shape cast to the same shape is the identity.
-/
import proofs.«144077_j28389733827178_1_alg».proof.Proof.Gen.KernelIdeal.Value
import proofs.«144077_j28389733827178_1_alg».proof.Proof.LtcSpec
import proofs.«144077_j28389733827178_1_alg».proof.Proof.LibDenseEntry
import Idealize.ShloMosaic.Lib.Pipeline.Value

noncomputable section

open scoped BigOperators

namespace Cert.Ltc.Ker

open Cert.KernelIdeal Cert.KernelIdeal.Gen Idealize.ShloMosaic Idealize.ShloMosaic.ValueIdx Cert.Ltc Cert.LibDenseEntry

/-- A one-row matrix repeated down 1024 rows, read at `(p, n)`, is the row at `n`. -/
theorem row_1024 (v : FVec Ideal S1x1024 .f32) (p n : Fin 1024) :
    broadcastTo S1024x1024 v broadcasts_S1x1024_S1024x1024 (ix2 p n) = v (ix2 (0 : Fin 1) n) :=
  broadcastTo_apply v broadcasts_S1x1024_S1024x1024 (ix2 p n) (ix2 (0 : Fin 1) n) (fun a => match a with
    | ⟨0, _⟩ => by show 0 = if (1 : Nat) = 1 then 0 else p.val; rw [if_pos rfl]
    | ⟨1, _⟩ => by show n.val = if (1024 : Nat) = 1 then 0 else n.val; rw [if_neg (by decide)])

/-- A one-row matrix of 512 entries repeated down 1024 rows, read at `(p, q)`, is the row at `q`. -/
theorem row_512 (v : FVec Ideal S1x512 .f32) (p : Fin 1024) (q : Fin 512) :
    broadcastTo S1024x512 v broadcasts_S1x512_S1024x512 (ix2 p q) = v (ix2 (0 : Fin 1) q) :=
  broadcastTo_apply v broadcasts_S1x512_S1024x512 (ix2 p q) (ix2 (0 : Fin 1) q) (fun a => match a with
    | ⟨0, _⟩ => by show 0 = if (1 : Nat) = 1 then 0 else p.val; rw [if_pos rfl]
    | ⟨1, _⟩ => by show q.val = if (512 : Nat) = 1 then 0 else q.val; rw [if_neg (by decide)])

/-- The block of pre-activations at `(p, n)`. -/
theorem pre_block (v0 : Vec Ideal S1024x512 .f32) (v1 : Vec Ideal S1024x128 .f32) (v4 : Vec Ideal S1024x256 .f32)
    (v6 : Vec Ideal S128x1024 .f32) (v9 : Vec Ideal S512x1024 .f32) (v12 : Vec Ideal S256x1024 .f32)
    (v18 : Vec Ideal S1x1024 .f32) (p n : Fin 1024) :
    k0_pay7 (F := Ideal) v0 v1 v4 v6 v9 v12 v18 (ix2 p n)
      = (((∑ k : Fin 128, v1 (ix2 p k) * v6 (ix2 k n)) + ∑ k : Fin 512, v0 (ix2 p k) * v9 (ix2 k n))
          + ∑ k : Fin 256, v4 (ix2 p k) * v12 (ix2 k n)) + v18 (ix2 (0 : Fin 1) n) := by
  unfold k0_pay7 k0_pay2
  show (((_ : EReal) + _) + _) + _ = _
  refine congrArg₂ (· + ·) (congrArg₂ (· + ·) (congrArg₂ (· + ·) ?_ ?_) ?_) ?_
  · refine (matmul_plain_zero_apply dot_S1024x128_S128x1024_S1024x1024_1_0_0_1_n_n rfl rfl rfl rfl rfl rfl none _ _ p n).trans ?_
    refine Finset.sum_congr rfl fun k _ => ?_
    exact congrArg₂ (· * ·) rfl (congrFun (shapeCast_self v6 shapeCasts_S128x1024_S128x1024) (ix2 k n))
  · refine (matmul_plain_zero_apply dot_S1024x512_S512x1024_S1024x1024_1_0_0_1_n_n rfl rfl rfl rfl rfl rfl none _ _ p n).trans ?_
    refine Finset.sum_congr rfl fun k _ => ?_
    exact congrArg₂ (· * ·) rfl (congrFun (shapeCast_self v9 shapeCasts_S512x1024_S512x1024) (ix2 k n))
  · refine (matmul_plain_zero_apply dot_S1024x256_S256x1024_S1024x1024_1_0_0_1_n_n rfl rfl rfl rfl rfl rfl none _ _ p n).trans ?_
    refine Finset.sum_congr rfl fun k _ => ?_
    exact congrArg₂ (· * ·) rfl (congrFun (shapeCast_self v12 shapeCasts_S256x1024_S256x1024) (ix2 k n))
  · refine (row_1024 _ p n).trans ?_
    exact congrFun (shapeCast_self v18 shapeCasts_S1x1024_S1x1024) (ix2 (0 : Fin 1) n)

/-- The first two terms of the denominator at `(p, q)`. -/
theorem tau_block (v3 : FVec Ideal S1024x512 .bf16) (v17 : FVec Ideal S512x512 .bf16) (v21 v25 : FVec Ideal S1x512 .f32)
    (p : Fin 1024) (q : Fin 512) :
    k0_pay10 (F := Ideal) v3 v17 v21 v25 (ix2 p q)
      = softplus ((∑ k : Fin 512, v3 (ix2 p k) * v17 (ix2 k q)) + v21 (ix2 (0 : Fin 1) q))
        + softplus (v25 (ix2 (0 : Fin 1) q)) := by
  have e37 : (addf (matmul dot_S1024x512_S512x512_S1024x512_1_0_0_1_n_n none v3 v17 (constant S1024x512 .f32 0x00000000#32))
      (broadcastTo S1024x512 v21 broadcasts_S1x512_S1024x512)) (ix2 p q)
        = (∑ k : Fin 512, v3 (ix2 p k) * v17 (ix2 k q)) + v21 (ix2 (0 : Fin 1) q) := by
    show (_ : EReal) + _ = _
    exact congrArg₂ (· + ·)
      (matmul_plain_zero_apply dot_S1024x512_S512x512_S1024x512_1_0_0_1_n_n rfl rfl rfl rfl rfl rfl none v3 v17 p q)
      (row_512 v21 p q)
  unfold k0_pay10
  show (_ : EReal) + _ = _
  refine congrArg₂ (· + ·) ?_ ?_
  · refine Eq.trans ?_ (congrArg softplus e37)
    exact softplus_vector ((addf (matmul dot_S1024x512_S512x512_S1024x512_1_0_0_1_n_n none v3 v17 (constant S1024x512 .f32 0x00000000#32))
      (broadcastTo S1024x512 v21 broadcasts_S1x512_S1024x512)) (ix2 p q))
  · refine (row_512 _ p q).trans ?_
    exact softplus_vector (v25 (ix2 (0 : Fin 1) q))

/-- What the body stores at `(p, q)` of its block, from the loaded blocks (named as the generated reading of the
    store names them: `P0` the block of `h`, `P1` of `x`, `P2` of the context, `P3 P4 P5` the transposed weight pieces,
    `P6` the bias row, `P7` the transposed `Wt`, `P8` its bias row, `P9` and `P10` the two remaining rows). -/
theorem out_block (P0 : Vec Ideal S1024x512 .f32) (P1 : Vec Ideal S1024x128 .f32) (P2 : Vec Ideal S1024x256 .f32)
    (P3 : Vec Ideal S128x1024 .f32) (P4 : Vec Ideal S512x1024 .f32) (P5 : Vec Ideal S256x1024 .f32)
    (P6 : Vec Ideal S1x1024 .f32) (P7 : Vec Ideal S512x512 .f32) (P8 P9 P10 : Vec Ideal S1x512 .f32)
    (p : Fin 1024) (q : Fin 512) :
    Cert.KernelIdeal.Value.E11 (F := Ideal) P0 P1 P2 P3 P4 P5 P6 P7 P8 P9 P10 (ix2 p q)
      = Ideal.div
          (Ideal.logistic (k0_pay7 (F := Ideal) P0 P1 P2 P3 P4 P5 P6 (ix2 p (unitLo q)))
            * Ideal.tanh (k0_pay7 (F := Ideal) P0 P1 P2 P3 P4 P5 P6 (ix2 p (unitHi q))) - P0 (ix2 p q))
          (((softplus ((∑ k : Fin 512, P0 (ix2 p k) * P7 (ix2 k q)) + P8 (ix2 (0 : Fin 1) q))
              + softplus (P9 (ix2 (0 : Fin 1) q))) + softplus (P10 (ix2 (0 : Fin 1) q)))
            + Ideal.ofBits .f32 0x358637BD#32) := by
  have i0 : Cert.KernelIdeal.Value.ix11_0 (ix2 p q) = ix2 p (unitLo q) := by
    funext a; match a with | ⟨0, _⟩ => rfl | ⟨1, _⟩ => rfl
  have i1 : Cert.KernelIdeal.Value.ix11_1 (ix2 p q) = ix2 p (unitHi q) := by
    funext a; apply Fin.ext
    match a with
    | ⟨0, _⟩ => rfl
    | ⟨1, _⟩ => show q.val + 512 = 512 + q.val; omega
  have i2 : Cert.KernelIdeal.Value.ix11_2 (ix2 p q) = ix2 p q := by
    funext a; match a with | ⟨0, _⟩ => rfl | ⟨1, _⟩ => rfl
  have i3 : Cert.KernelIdeal.Value.ix11_3 (ix2 p q) = ix2 p q := by
    funext a; match a with | ⟨0, _⟩ => rfl | ⟨1, _⟩ => rfl
  have i4 : Cert.KernelIdeal.Value.ix11_4 (ix2 p q) = ix2 (0 : Fin 1) q := by
    funext a; match a with | ⟨0, _⟩ => rfl | ⟨1, _⟩ => rfl
  have i5 : Cert.KernelIdeal.Value.ix11_5 (ix2 p q) = ix2 (0 : Fin 1) q := by
    funext a; match a with | ⟨0, _⟩ => rfl | ⟨1, _⟩ => rfl
  have i6 : Cert.KernelIdeal.Value.ix11_6 (ix2 p q) = ix2 (0 : Fin 1) q := by
    funext a; match a with | ⟨0, _⟩ => rfl | ⟨1, _⟩ => rfl
  have i7 : Cert.KernelIdeal.Value.ix11_7 (ix2 p q) = ix2 (0 : Fin 1) q := by
    funext a; match a with | ⟨0, _⟩ => rfl | ⟨1, _⟩ => rfl
  have i8 : Cert.KernelIdeal.Value.ix11_8 (ix2 p q) = ix2 (0 : Fin 1) q := by
    funext a; match a with | ⟨0, _⟩ => rfl | ⟨1, _⟩ => rfl
  have et := tau_block (truncf .bf16 P0 bitsLt_bf16_f32) (truncf .bf16 (shapeCast S512x512 P7 shapeCasts_S512x512_S512x512) bitsLt_bf16_f32)
      (shapeCast S1x512 P8 shapeCasts_S1x512_S1x512) (shapeCast S1x512 P9 shapeCasts_S1x512_S1x512) p q
  show Ideal.div (Ideal.logistic (k0_pay7 (F := Ideal) P0 P1 P2 P3 P4 P5 P6 (Cert.KernelIdeal.Value.ix11_0 (ix2 p q)))
        * Ideal.tanh (k0_pay7 (F := Ideal) P0 P1 P2 P3 P4 P5 P6 (Cert.KernelIdeal.Value.ix11_1 (ix2 p q))) - P0 (Cert.KernelIdeal.Value.ix11_2 (ix2 p q)))
      ((k0_pay10 (F := Ideal) (truncf .bf16 P0 bitsLt_bf16_f32) (truncf .bf16 (shapeCast S512x512 P7 shapeCasts_S512x512_S512x512) bitsLt_bf16_f32)
          (shapeCast S1x512 P8 shapeCasts_S1x512_S1x512) (shapeCast S1x512 P9 shapeCasts_S1x512_S1x512) (Cert.KernelIdeal.Value.ix11_3 (ix2 p q))
        + _) + Ideal.ofBits .f32 0x358637BD#32) = _
  rw [i0, i1, i2, i3, i4, i5, i6, i7, i8]
  refine congrArg₂ Ideal.div rfl (congrArg₂ (· + ·) (congrArg₂ (· + ·) ?_ ?_) rfl)
  · refine et.trans ?_
    rw [shapeCast_self P7, shapeCast_self P8, shapeCast_self P9]
    rfl
  · exact softplus_vector (P10 (ix2 (0 : Fin 1) q))

/-- The body's result block is that stored value at every entry: a whole-block load is the block, and the one store's
    canonical reading is the function just described (the blocks in the order the body's arguments take them:
    `x0` the block of `x`, `x1` of `h`, `x2` of the context, `x3 x4 x5` the weight pieces, `x6` the bias row,
    `x7` the transposed `Wt`, `x8` its bias row, `x9` and `x10` the last two rows). -/
theorem out_eq (x0 : Vec Ideal S1024x128 .f32) (x1 : Vec Ideal S1024x512 .f32) (x2 : Vec Ideal S1024x256 .f32)
    (x3 : Vec Ideal S128x1024 .f32) (x4 : Vec Ideal S512x1024 .f32) (x5 : Vec Ideal S256x1024 .f32)
    (x6 : Vec Ideal S1x1024 .f32) (x7 : Vec Ideal S512x512 .f32) (x8 x9 x10 : Vec Ideal S1x512 .f32) (y : S1024x512.Idx) :
    out0_11 (F := Ideal) x0 x1 x2 x3 x4 x5 x6 x7 x8 x9 x10 y
      = Cert.KernelIdeal.Value.E11 (F := Ideal) x1 x0 x2 x3 x4 x5 x6 x7 x8 x10 x9 y := by
  have hz : (![0, 0] : Fin 2 → Nat) = fun _ => 0 := funext fun a => by fin_cases a <;> rfl
  unfold out0_11
  simp only [View.ld_unit_zero (S := S1024x512) hz, View.ld_unit_zero (S := S1024x128) hz,
    View.ld_unit_zero (S := S1024x256) hz, View.ld_unit_zero (S := S128x1024) hz, View.ld_unit_zero (S := S512x1024) hz,
    View.ld_unit_zero (S := S256x1024) hz, View.ld_unit_zero (S := S512x512) hz, View.ld_unit_zero (S := S1x1024) hz,
    View.ld_unit_zero (S := S1x512) hz]
  exact Cert.KernelIdeal.Value.canon11_eq x1 x0 x2 x3 x4 x5 x6 x7 x8 x10 x9 y

/-- If the loaded blocks are the stated pieces of the argument arrays — 1024 consecutive rows `R p` of `x`, `h` and
    the context; the transposed column stretches of `W`; the transposed `Wt`; the four vectors as one-row matrices —
    then the stored entry `(p, q)` is the cell at row `R p`, unit `q`. -/
theorem point_eq (h : Arr2 16384 512) (x : Arr2 16384 128) (cx : Arr2 16384 256) (W : Arr2 1024 896) (b : Arr1 1024)
    (Wt : Arr2 512 512) (bt gl cm : Arr1 512)
    (x0 : Vec Ideal S1024x128 .f32) (x1 : Vec Ideal S1024x512 .f32) (x2 : Vec Ideal S1024x256 .f32)
    (x3 : Vec Ideal S128x1024 .f32) (x4 : Vec Ideal S512x1024 .f32) (x5 : Vec Ideal S256x1024 .f32)
    (x6 : Vec Ideal S1x1024 .f32) (x7 : Vec Ideal S512x512 .f32) (x8 x9 x10 : Vec Ideal S1x512 .f32)
    (R : Fin 1024 → Fin 16384)
    (h0 : ∀ (p : Fin 1024) (k : Fin 128), x0 (ix2 p k) = x (ix2 (R p) k))
    (h1 : ∀ (p : Fin 1024) (k : Fin 512), x1 (ix2 p k) = h (ix2 (R p) k))
    (h2 : ∀ (p : Fin 1024) (k : Fin 256), x2 (ix2 p k) = cx (ix2 (R p) k))
    (h3 : ∀ (k : Fin 128) (n : Fin 1024), x3 (ix2 k n) = W (ix2 n (colX k)))
    (h4 : ∀ (k : Fin 512) (n : Fin 1024), x4 (ix2 k n) = W (ix2 n (colH k)))
    (h5 : ∀ (k : Fin 256) (n : Fin 1024), x5 (ix2 k n) = W (ix2 n (colC k)))
    (h6 : ∀ n : Fin 1024, x6 (ix2 (0 : Fin 1) n) = b (ix1 n))
    (h7 : ∀ (k q : Fin 512), x7 (ix2 k q) = Wt (ix2 q k))
    (h8 : ∀ q : Fin 512, x8 (ix2 (0 : Fin 1) q) = bt (ix1 q))
    (h9 : ∀ q : Fin 512, x9 (ix2 (0 : Fin 1) q) = gl (ix1 q))
    (h10 : ∀ q : Fin 512, x10 (ix2 (0 : Fin 1) q) = cm (ix1 q))
    (p : Fin 1024) (q : Fin 512) :
    out0_11 (F := Ideal) x0 x1 x2 x3 x4 x5 x6 x7 x8 x9 x10 (ix2 p q) = cellAt h x cx W b Wt bt gl cm (R p) q := by
  have hgd : ∀ n : Fin 1024, k0_pay7 (F := Ideal) x1 x0 x2 x3 x4 x5 x6 (ix2 p n) = gd h x cx W b (R p) n := by
    intro n
    refine (pre_block x1 x0 x2 x3 x4 x5 x6 p n).trans ?_
    unfold gd
    refine congrArg₂ (· + ·) (congrArg₂ (· + ·) (congrArg₂ (· + ·) ?_ ?_) ?_) (h6 n)
    · exact Finset.sum_congr rfl fun k _ => congrArg₂ (· * ·) (h0 p k) (h3 k n)
    · exact Finset.sum_congr rfl fun k _ => congrArg₂ (· * ·) (h1 p k) (h4 k n)
    · exact Finset.sum_congr rfl fun k _ => congrArg₂ (· * ·) (h2 p k) (h5 k n)
  have htl : (∑ k : Fin 512, x1 (ix2 p k) * x7 (ix2 k q)) + x8 (ix2 (0 : Fin 1) q) = tl h Wt bt (R p) q := by
    unfold tl
    exact congrArg₂ (· + ·) (Finset.sum_congr rfl fun k _ => congrArg₂ (· * ·) (h1 p k) (h7 k q)) (h8 q)
  refine (out_eq x0 x1 x2 x3 x4 x5 x6 x7 x8 x9 x10 (ix2 p q)).trans ?_
  refine (out_block x1 x0 x2 x3 x4 x5 x6 x7 x8 x10 x9 p q).trans ?_
  unfold cellAt
  rw [hgd (unitLo q), hgd (unitHi q), htl, h1 p q, h10 q, h9 q]

end Cert.Ltc.Ker

end
-- ==== Proof.LtcArray.lean ====
/-
  From blocks to the whole result array.

  The grid has 16 points; point `t` works on rows `1024·a .. 1024·a + 1023` where `a` is the output window's block
  index at `t` (the index maps of the windows of `x`, `h`, the context and the result move together; the other
  eight windows sit at block `(0, 0)` throughout — decided once over the 16 points).  Before the region the host
  cuts the weight matrix into its three column stretches and transposes each, transposes `Wt`, and makes each of the
  four vectors a one-row matrix; read at an entry these are the matrix at the swapped, shifted entry and the vector at
  its index.  So every loaded block is the piece of the argument arrays that `point_eq` asks for, what point `t`
  writes back is block `t` of the cell, the 16 blocks cover the 16384 rows (row `r` is in block `r / 1024`), and
  the result array ends as the cell.
-/
import proofs.«144077_j28389733827178_1_alg».proof.Proof.Gen.KernelIdeal.Value
import proofs.«144077_j28389733827178_1_alg».proof.Proof.LtcSpec
import proofs.«144077_j28389733827178_1_alg».proof.Proof.LtcBlock
import Idealize.ShloMosaic.Lib.Pipeline.Value
import Idealize.ShloMosaic.Lib.StableHlo.Run
import Idealize.ShloMosaic.PureOps.Ideal

noncomputable section

open scoped BigOperators

namespace Cert.Ltc.Arr

open Cert.KernelIdeal Cert.KernelIdeal.Gen Idealize.ShloMosaic Idealize.ShloMosaic.TcCoe Idealize.SL.Sem
open Idealize.ShloMosaic.StableHlo Idealize.ShloMosaic.ValueIdx Cert.Ltc
open Idealize.ShloMosaic.Pipeline (Dat)

variable (m : (ℓ : Loc nD τ sig) → Buf (Elt Ideal) ℓ) (ρ : Dev nD → PrngReg)

/-! ## The index maps over the grid -/

/-- The windows of `x`, `h` and the context move with the result's window along the rows; every other window, and
    every window along the columns, stays at block 0. -/
theorem idx_facts : ∀ t : Fin cfg0.N,
    win0_0.index t (0 : Fin 2) = win0_11.index t (0 : Fin 2) ∧ win0_0.index t (1 : Fin 2) = 0
    ∧ win0_1.index t (0 : Fin 2) = win0_11.index t (0 : Fin 2) ∧ win0_1.index t (1 : Fin 2) = 0
    ∧ win0_2.index t (0 : Fin 2) = win0_11.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (1 : Fin 2) = 0 :=
  (by decide +kernel : ∀ t : Fin grid0.N, _)

/-- The result's row block is one of the 16. -/
theorem row_block_le : ∀ t : Fin cfg0.N, win0_11.index t (0 : Fin 2) ≤ 15 :=
  (by decide +kernel : ∀ t : Fin grid0.N, win0_11.index t (0 : Fin 2) ≤ 15)

/-- Every one of the 16 row blocks is some point's. -/
theorem idx_onto : ∀ a : Fin 16, ∃ t : Fin cfg0.N, win0_11.index t = ![a.val, 0] :=
  (by decide +kernel : ∀ a : Fin 16, ∃ t : Fin grid0.N, win0_11.index t = ![a.val, 0])

/-- Row `p` of point `t`'s block, as a row of the whole arrays. -/
def row (t : Fin cfg0.N) (p : Fin 1024) : Fin 16384 :=
  ⟨win0_11.index t (0 : Fin 2) * 1024 + p.val, by
    have h15 : win0_11.index t (0 : Fin 2) ≤ 15 := row_block_le t
    have := p.isLt; omega⟩

/-! ## The arrays the host writes before the region, at an entry -/

/-- A column stretch of `W`, transposed: entry `(k, n)` is `W (n, off + k)`. -/
theorem wx_at (c : Dev nD) (k : Fin 128) (n : Fin 1024) :
    (V m c main_v1 : S128x1024.Idx → EReal) (ix2 k n) = ((m ((c : Thread nD τ).loc main_arg4)) : S1024x896.Idx → EReal) (ix2 n (colX k)) := by
  have e : (V m c main_v1 : S128x1024.Idx → EReal) = transpose S128x1024 [1, 0]
      (extractStridedSlice S1024x128 ![0, 0] (m ((c : Thread nD τ).loc main_arg4)) slices_S1024x896_S1024x128_0_0) transposes_S1024x128_S128x1024_1_0 := by
    dsimp only [Gen.V, Gen.hostOps0]; after_results
  rw [e]
  refine (transpose_apply [1, 0] _ transposes_S1024x128_S128x1024_1_0 (ix2 k n) (ix2 n k) (fun b => match b with
    | ⟨0, _⟩ => rfl
    | ⟨1, _⟩ => rfl)).trans ?_
  exact extractStridedSlice_apply ![0, 0] _ slices_S1024x896_S1024x128_0_0 (ix2 n k) (ix2 n (colX k)) (fun a => match a with
    | ⟨0, _⟩ => by show n.val = 0 + n.val; omega
    | ⟨1, _⟩ => by show k.val = 0 + k.val; omega)

theorem wh_at (c : Dev nD) (k : Fin 512) (n : Fin 1024) :
    (V m c main_v3 : S512x1024.Idx → EReal) (ix2 k n) = ((m ((c : Thread nD τ).loc main_arg4)) : S1024x896.Idx → EReal) (ix2 n (colH k)) := by
  have e : (V m c main_v3 : S512x1024.Idx → EReal) = transpose S512x1024 [1, 0]
      (extractStridedSlice S1024x512 ![0, 128] (m ((c : Thread nD τ).loc main_arg4)) slices_S1024x896_S1024x512_0_128) transposes_S1024x512_S512x1024_1_0 := by
    dsimp only [Gen.V, Gen.hostOps0]; after_results
  rw [e]
  refine (transpose_apply [1, 0] _ transposes_S1024x512_S512x1024_1_0 (ix2 k n) (ix2 n k) (fun b => match b with
    | ⟨0, _⟩ => rfl
    | ⟨1, _⟩ => rfl)).trans ?_
  exact extractStridedSlice_apply ![0, 128] _ slices_S1024x896_S1024x512_0_128 (ix2 n k) (ix2 n (colH k)) (fun a => match a with
    | ⟨0, _⟩ => by show n.val = 0 + n.val; omega
    | ⟨1, _⟩ => by show 128 + k.val = 128 + k.val; rfl)

theorem wc_at (c : Dev nD) (k : Fin 256) (n : Fin 1024) :
    (V m c main_v5 : S256x1024.Idx → EReal) (ix2 k n) = ((m ((c : Thread nD τ).loc main_arg4)) : S1024x896.Idx → EReal) (ix2 n (colC k)) := by
  have e : (V m c main_v5 : S256x1024.Idx → EReal) = transpose S256x1024 [1, 0]
      (extractStridedSlice S1024x256 ![0, 640] (m ((c : Thread nD τ).loc main_arg4)) slices_S1024x896_S1024x256_0_640) transposes_S1024x256_S256x1024_1_0 := by
    dsimp only [Gen.V, Gen.hostOps0]; after_results
  rw [e]
  refine (transpose_apply [1, 0] _ transposes_S1024x256_S256x1024_1_0 (ix2 k n) (ix2 n k) (fun b => match b with
    | ⟨0, _⟩ => rfl
    | ⟨1, _⟩ => rfl)).trans ?_
  exact extractStridedSlice_apply ![0, 640] _ slices_S1024x896_S1024x256_0_640 (ix2 n k) (ix2 n (colC k)) (fun a => match a with
    | ⟨0, _⟩ => by show n.val = 0 + n.val; omega
    | ⟨1, _⟩ => by show 640 + k.val = 640 + k.val; rfl)

/-- `Wt` transposed: entry `(k, q)` is `Wt (q, k)`. -/
theorem wt_at (c : Dev nD) (k q : Fin 512) :
    (V m c main_v6 : S512x512.Idx → EReal) (ix2 k q) = ((m ((c : Thread nD τ).loc main_arg6)) : S512x512.Idx → EReal) (ix2 q k) := by
  have e : (V m c main_v6 : S512x512.Idx → EReal) = transpose S512x512 [1, 0] (m ((c : Thread nD τ).loc main_arg6)) transposes_S512x512_S512x512_1_0 := by
    dsimp only [Gen.V, Gen.hostOps0]; after_results
  rw [e]
  exact transpose_apply [1, 0] _ transposes_S512x512_S512x512_1_0 (ix2 k q) (ix2 q k) (fun b => match b with
    | ⟨0, _⟩ => rfl
    | ⟨1, _⟩ => rfl)

/-- A vector made a one-row matrix, read at `(0, n)`, is the vector at `n`. -/
theorem b_at (c : Dev nD) (n : Fin 1024) :
    (V m c main_v7 : S1x1024.Idx → EReal) (ix2 (0 : Fin 1) n) = ((m ((c : Thread nD τ).loc main_arg5)) : S1024.Idx → EReal) (ix1 n) := by
  have e : (V m c main_v7 : S1x1024.Idx → EReal) = shapeCast S1x1024 (m ((c : Thread nD τ).loc main_arg5)) shapeCasts_S1024_S1x1024 := by
    dsimp only [Gen.V, Gen.hostOps0]; after_results; rfl
  rw [e]
  refine (shapeCast_addUnit_apply ![1024] _ shapeCasts_S1024_S1x1024 (ix2 (0 : Fin 1) n)).trans ?_
  refine congrArg _ ?_
  funext a; match a with | ⟨0, _⟩ => rfl

theorem bt_at (c : Dev nD) (q : Fin 512) :
    (V m c main_v8 : S1x512.Idx → EReal) (ix2 (0 : Fin 1) q) = ((m ((c : Thread nD τ).loc main_arg7)) : S512.Idx → EReal) (ix1 q) := by
  have e : (V m c main_v8 : S1x512.Idx → EReal) = shapeCast S1x512 (m ((c : Thread nD τ).loc main_arg7)) shapeCasts_S512_S1x512 := by
    dsimp only [Gen.V, Gen.hostOps0]; after_results; rfl
  rw [e]
  refine (shapeCast_addUnit_apply ![512] _ shapeCasts_S512_S1x512 (ix2 (0 : Fin 1) q)).trans ?_
  refine congrArg _ ?_
  funext a; match a with | ⟨0, _⟩ => rfl

theorem gl_at (c : Dev nD) (q : Fin 512) :
    (V m c main_v9 : S1x512.Idx → EReal) (ix2 (0 : Fin 1) q) = ((m ((c : Thread nD τ).loc main_arg8)) : S512.Idx → EReal) (ix1 q) := by
  have e : (V m c main_v9 : S1x512.Idx → EReal) = shapeCast S1x512 (m ((c : Thread nD τ).loc main_arg8)) shapeCasts_S512_S1x512 := by
    dsimp only [Gen.V, Gen.hostOps0]; after_results; rfl
  rw [e]
  refine (shapeCast_addUnit_apply ![512] _ shapeCasts_S512_S1x512 (ix2 (0 : Fin 1) q)).trans ?_
  refine congrArg _ ?_
  funext a; match a with | ⟨0, _⟩ => rfl

theorem cm_at (c : Dev nD) (q : Fin 512) :
    (V m c main_v10 : S1x512.Idx → EReal) (ix2 (0 : Fin 1) q) = ((m ((c : Thread nD τ).loc main_arg9)) : S512.Idx → EReal) (ix1 q) := by
  have e : (V m c main_v10 : S1x512.Idx → EReal) = shapeCast S1x512 (m ((c : Thread nD τ).loc main_arg9)) shapeCasts_S512_S1x512 := by
    dsimp only [Gen.V, Gen.hostOps0]; after_results; rfl
  rw [e]
  refine (shapeCast_addUnit_apply ![512] _ shapeCasts_S512_S1x512 (ix2 (0 : Fin 1) q)).trans ?_
  refine congrArg _ ?_
  funext a; match a with | ⟨0, _⟩ => rfl

/-! ## Every loaded block, entry by entry -/

/-- Point `t`'s block of `x`: row `p` is row `row t p` of `x`. -/
theorem blk_x (c : Dev nD) (t : Fin cfg0.N) (p : Fin 1024) (k : Fin 128) :
    (iblk m c 0 t : Vec Ideal S1024x128 .f32) (ix2 p k) = ((m ((c : Thread nD τ).loc main_arg2)) : S16384x128.Idx → EReal) (ix2 (row t p) k) := by
  obtain ⟨a00, a01, a10, a11, a20, a21, a30, a31, a40, a41, a50, a51, a60, a61, a70, a71, a80, a81, a90, a91, aA0, aA1, aB1⟩ := idx_facts t
  show V m c main_arg2 (((cfg0.win 0).blk t).view.emb (ix2 p k)) = _
  rw [V_main_arg2]
  refine congrArg _ ?_
  funext a; apply Fin.ext
  match a with
  | ⟨0, _⟩ => show win0_0.index t (0 : Fin 2) * 1024 + 1 * p.val = win0_11.index t (0 : Fin 2) * 1024 + p.val; omega
  | ⟨1, _⟩ => show win0_0.index t (1 : Fin 2) * 128 + 1 * k.val = k.val; omega

/-- Point `t`'s block of `h`. -/
theorem blk_h (c : Dev nD) (t : Fin cfg0.N) (p : Fin 1024) (k : Fin 512) :
    (iblk m c 1 t : Vec Ideal S1024x512 .f32) (ix2 p k) = ((m ((c : Thread nD τ).loc main_arg1)) : S16384x512.Idx → EReal) (ix2 (row t p) k) := by
  obtain ⟨a00, a01, a10, a11, a20, a21, a30, a31, a40, a41, a50, a51, a60, a61, a70, a71, a80, a81, a90, a91, aA0, aA1, aB1⟩ := idx_facts t
  show V m c main_arg1 (((cfg0.win 1).blk t).view.emb (ix2 p k)) = _
  rw [V_main_arg1]
  refine congrArg _ ?_
  funext a; apply Fin.ext
  match a with
  | ⟨0, _⟩ => show win0_1.index t (0 : Fin 2) * 1024 + 1 * p.val = win0_11.index t (0 : Fin 2) * 1024 + p.val; omega
  | ⟨1, _⟩ => show win0_1.index t (1 : Fin 2) * 512 + 1 * k.val = k.val; omega

/-- Point `t`'s block of the context. -/
theorem blk_c (c : Dev nD) (t : Fin cfg0.N) (p : Fin 1024) (k : Fin 256) :
    (iblk m c 2 t : Vec Ideal S1024x256 .f32) (ix2 p k) = ((m ((c : Thread nD τ).loc main_arg3)) : S16384x256.Idx → EReal) (ix2 (row t p) k) := by
  obtain ⟨a00, a01, a10, a11, a20, a21, a30, a31, a40, a41, a50, a51, a60, a61, a70, a71, a80, a81, a90, a91, aA0, aA1, aB1⟩ := idx_facts t
  show V m c main_arg3 (((cfg0.win 2).blk t).view.emb (ix2 p k)) = _
  rw [V_main_arg3]
  refine congrArg _ ?_
  funext a; apply Fin.ext
  match a with
  | ⟨0, _⟩ => show win0_2.index t (0 : Fin 2) * 1024 + 1 * p.val = win0_11.index t (0 : Fin 2) * 1024 + p.val; omega
  | ⟨1, _⟩ => show win0_2.index t (1 : Fin 2) * 256 + 1 * k.val = k.val; omega

/-- The first weight piece is resident: the same whole array at every point. -/
theorem blk_wx (c : Dev nD) (t : Fin cfg0.N) (i : Fin 128) (j : Fin 1024) :
    (iblk m c 3 t : Vec Ideal S128x1024 .f32) (ix2 i j) = ((m ((c : Thread nD τ).loc main_arg4)) : S1024x896.Idx → EReal) (ix2 j (colX i)) := by
  obtain ⟨a00, a01, a10, a11, a20, a21, a30, a31, a40, a41, a50, a51, a60, a61, a70, a71, a80, a81, a90, a91, aA0, aA1, aB1⟩ := idx_facts t
  have e : ((cfg0.win 3).blk t).view.emb (ix2 i j) = (ix2 i j : S128x1024.Idx) := by
    funext a; apply Fin.ext
    match a with
    | ⟨0, _⟩ => show win0_3.index t (0 : Fin 2) * 128 + 1 * i.val = i.val; omega
    | ⟨1, _⟩ => show win0_3.index t (1 : Fin 2) * 1024 + 1 * j.val = j.val; omega
  show V m c main_v1 (((cfg0.win 3).blk t).view.emb (ix2 i j)) = _
  rw [e]
  exact wx_at m c i j

/-- The second weight piece. -/
theorem blk_wh (c : Dev nD) (t : Fin cfg0.N) (i : Fin 512) (j : Fin 1024) :
    (iblk m c 4 t : Vec Ideal S512x1024 .f32) (ix2 i j) = ((m ((c : Thread nD τ).loc main_arg4)) : S1024x896.Idx → EReal) (ix2 j (colH i)) := by
  obtain ⟨a00, a01, a10, a11, a20, a21, a30, a31, a40, a41, a50, a51, a60, a61, a70, a71, a80, a81, a90, a91, aA0, aA1, aB1⟩ := idx_facts t
  have e : ((cfg0.win 4).blk t).view.emb (ix2 i j) = (ix2 i j : S512x1024.Idx) := by
    funext a; apply Fin.ext
    match a with
    | ⟨0, _⟩ => show win0_4.index t (0 : Fin 2) * 512 + 1 * i.val = i.val; omega
    | ⟨1, _⟩ => show win0_4.index t (1 : Fin 2) * 1024 + 1 * j.val = j.val; omega
  show V m c main_v3 (((cfg0.win 4).blk t).view.emb (ix2 i j)) = _
  rw [e]
  exact wh_at m c i j

/-- The third weight piece. -/
theorem blk_wc (c : Dev nD) (t : Fin cfg0.N) (i : Fin 256) (j : Fin 1024) :
    (iblk m c 5 t : Vec Ideal S256x1024 .f32) (ix2 i j) = ((m ((c : Thread nD τ).loc main_arg4)) : S1024x896.Idx → EReal) (ix2 j (colC i)) := by
  obtain ⟨a00, a01, a10, a11, a20, a21, a30, a31, a40, a41, a50, a51, a60, a61, a70, a71, a80, a81, a90, a91, aA0, aA1, aB1⟩ := idx_facts t
  have e : ((cfg0.win 5).blk t).view.emb (ix2 i j) = (ix2 i j : S256x1024.Idx) := by
    funext a; apply Fin.ext
    match a with
    | ⟨0, _⟩ => show win0_5.index t (0 : Fin 2) * 256 + 1 * i.val = i.val; omega
    | ⟨1, _⟩ => show win0_5.index t (1 : Fin 2) * 1024 + 1 * j.val = j.val; omega
  show V m c main_v5 (((cfg0.win 5).blk t).view.emb (ix2 i j)) = _
  rw [e]
  exact wc_at m c i j

/-- The bias row. -/
theorem blk_b (c : Dev nD) (t : Fin cfg0.N) (i : Fin 1) (j : Fin 1024) :
    (iblk m c 6 t : Vec Ideal S1x1024 .f32) (ix2 i j) = ((m ((c : Thread nD τ).loc main_arg5)) : S1024.Idx → EReal) (ix1 j) := by
  obtain ⟨a00, a01, a10, a11, a20, a21, a30, a31, a40, a41, a50, a51, a60, a61, a70, a71, a80, a81, a90, a91, aA0, aA1, aB1⟩ := idx_facts t
  have e : ((cfg0.win 6).blk t).view.emb (ix2 i j) = (ix2 i j : S1x1024.Idx) := by
    funext a; apply Fin.ext
    match a with
    | ⟨0, _⟩ => show win0_6.index t (0 : Fin 2) * 1 + 1 * i.val = i.val; omega
    | ⟨1, _⟩ => show win0_6.index t (1 : Fin 2) * 1024 + 1 * j.val = j.val; omega
  show V m c main_v7 (((cfg0.win 6).blk t).view.emb (ix2 i j)) = _
  rw [e]
  have hi : i = 0 := Fin.ext (by have := i.isLt; omega)
  subst hi
  exact b_at m c j

/-- The transposed `Wt`. -/
theorem blk_wt (c : Dev nD) (t : Fin cfg0.N) (i j : Fin 512) :
    (iblk m c 7 t : Vec Ideal S512x512 .f32) (ix2 i j) = ((m ((c : Thread nD τ).loc main_arg6)) : S512x512.Idx → EReal) (ix2 j i) := by
  obtain ⟨a00, a01, a10, a11, a20, a21, a30, a31, a40, a41, a50, a51, a60, a61, a70, a71, a80, a81, a90, a91, aA0, aA1, aB1⟩ := idx_facts t
  have e : ((cfg0.win 7).blk t).view.emb (ix2 i j) = (ix2 i j : S512x512.Idx) := by
    funext a; apply Fin.ext
    match a with
    | ⟨0, _⟩ => show win0_7.index t (0 : Fin 2) * 512 + 1 * i.val = i.val; omega
    | ⟨1, _⟩ => show win0_7.index t (1 : Fin 2) * 512 + 1 * j.val = j.val; omega
  show V m c main_v6 (((cfg0.win 7).blk t).view.emb (ix2 i j)) = _
  rw [e]
  exact wt_at m c i j

/-- The time constant's bias row. -/
theorem blk_bt (c : Dev nD) (t : Fin cfg0.N) (i : Fin 1) (j : Fin 512) :
    (iblk m c 8 t : Vec Ideal S1x512 .f32) (ix2 i j) = ((m ((c : Thread nD τ).loc main_arg7)) : S512.Idx → EReal) (ix1 j) := by
  obtain ⟨a00, a01, a10, a11, a20, a21, a30, a31, a40, a41, a50, a51, a60, a61, a70, a71, a80, a81, a90, a91, aA0, aA1, aB1⟩ := idx_facts t
  have e : ((cfg0.win 8).blk t).view.emb (ix2 i j) = (ix2 i j : S1x512.Idx) := by
    funext a; apply Fin.ext
    match a with
    | ⟨0, _⟩ => show win0_8.index t (0 : Fin 2) * 1 + 1 * i.val = i.val; omega
    | ⟨1, _⟩ => show win0_8.index t (1 : Fin 2) * 512 + 1 * j.val = j.val; omega
  show V m c main_v8 (((cfg0.win 8).blk t).view.emb (ix2 i j)) = _
  rw [e]
  have hi : i = 0 := Fin.ext (by have := i.isLt; omega)
  subst hi
  exact bt_at m c j

/-- The leak row. -/
theorem blk_gl (c : Dev nD) (t : Fin cfg0.N) (i : Fin 1) (j : Fin 512) :
    (iblk m c 9 t : Vec Ideal S1x512 .f32) (ix2 i j) = ((m ((c : Thread nD τ).loc main_arg8)) : S512.Idx → EReal) (ix1 j) := by
  obtain ⟨a00, a01, a10, a11, a20, a21, a30, a31, a40, a41, a50, a51, a60, a61, a70, a71, a80, a81, a90, a91, aA0, aA1, aB1⟩ := idx_facts t
  have e : ((cfg0.win 9).blk t).view.emb (ix2 i j) = (ix2 i j : S1x512.Idx) := by
    funext a; apply Fin.ext
    match a with
    | ⟨0, _⟩ => show win0_9.index t (0 : Fin 2) * 1 + 1 * i.val = i.val; omega
    | ⟨1, _⟩ => show win0_9.index t (1 : Fin 2) * 512 + 1 * j.val = j.val; omega
  show V m c main_v9 (((cfg0.win 9).blk t).view.emb (ix2 i j)) = _
  rw [e]
  have hi : i = 0 := Fin.ext (by have := i.isLt; omega)
  subst hi
  exact gl_at m c j

/-- The capacitance row. -/
theorem blk_cm (c : Dev nD) (t : Fin cfg0.N) (i : Fin 1) (j : Fin 512) :
    (iblk m c 10 t : Vec Ideal S1x512 .f32) (ix2 i j) = ((m ((c : Thread nD τ).loc main_arg9)) : S512.Idx → EReal) (ix1 j) := by
  obtain ⟨a00, a01, a10, a11, a20, a21, a30, a31, a40, a41, a50, a51, a60, a61, a70, a71, a80, a81, a90, a91, aA0, aA1, aB1⟩ := idx_facts t
  have e : ((cfg0.win 10).blk t).view.emb (ix2 i j) = (ix2 i j : S1x512.Idx) := by
    funext a; apply Fin.ext
    match a with
    | ⟨0, _⟩ => show win0_10.index t (0 : Fin 2) * 1 + 1 * i.val = i.val; omega
    | ⟨1, _⟩ => show win0_10.index t (1 : Fin 2) * 512 + 1 * j.val = j.val; omega
  show V m c main_v10 (((cfg0.win 10).blk t).view.emb (ix2 i j)) = _
  rw [e]
  have hi : i = 0 := Fin.ext (by have := i.isLt; omega)
  subst hi
  exact cm_at m c j

/-! ## What a point writes back, the cover, and the run -/

/-- The cell of the argument arrays as launched. -/
abbrev result (c : Dev nD) : S16384x512.Idx → EReal :=
  cell (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- What point `t` writes back is block `t` of the cell. -/
theorem flushed_eq (c : Dev nD) (t : Fin cfg0.N) :
    (dats m 0 c).flushed 11 t = ((cfg0.win 11).blk t).view.read (Elt Ideal) (result m c) := by
  obtain ⟨a00, a01, a10, a11, a20, a21, a30, a31, a40, a41, a50, a51, a60, a61, a70, a71, a80, a81, a90, a91, aA0, aA1, aB1⟩ := idx_facts t
  rw [Cert.KernelIdeal.Value.flushed11]
  funext y
  obtain ⟨p, q, rfl⟩ : ∃ (p : Fin 1024) (q : Fin 512), y = ix2 p q := ⟨y 0, y 1, eq_ix2 y⟩
  have hemb : ((cfg0.win 11).blk t).view.emb (ix2 p q) = (ix2 (row t p) q : S16384x512.Idx) := by
    funext a; apply Fin.ext
    match a with
    | ⟨0, _⟩ => show win0_11.index t (0 : Fin 2) * 1024 + 1 * p.val = win0_11.index t (0 : Fin 2) * 1024 + p.val; omega
    | ⟨1, _⟩ => show win0_11.index t (1 : Fin 2) * 512 + 1 * q.val = q.val; omega
  show out0_11 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (ix2 p q)
    = result m c (((cfg0.win 11).blk t).view.emb (ix2 p q))
  rw [hemb]
  exact Ker.point_eq (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
    (iblk m c 0 t) (iblk m c 1 t) (iblk m c 2 t) (iblk m c 3 t) (iblk m c 4 t) (iblk m c 5 t) (iblk m c 6 t)
    (iblk m c 7 t) (iblk m c 8 t) (iblk m c 9 t) (iblk m c 10 t) (row t)
    (blk_x m c t) (blk_h m c t) (blk_c m c t) (blk_wx m c t) (blk_wh m c t) (blk_wc m c t) (blk_b m c t 0)
    (blk_wt m c t) (blk_bt m c t 0) (blk_gl m c t 0) (blk_cm m c t 0) p q

/-- An index of the array is in point `t`'s block iff each coordinate is in the block's range on its axis. -/
theorem mem_blk (t : Fin cfg0.N) (i : S16384x512.Idx) :
    i ∈ ((cfg0.win 11).blk t).view.set ↔ ∀ a : Fin 2, win0_11.index t a * S1024x512.size a ≤ (i a).val
      ∧ (i a).val < win0_11.index t a * S1024x512.size a + S1024x512.size a := by
  show i ∈ ((View.whole main_v11).slice (win0_11.rect t)).set ↔ _
  rw [View.set_slice_whole, Rect.mem_set_unit]
  exact Iff.rfl

/-- Every index of the result array is in some point's block: row `r` in block `r / 1024`. -/
theorem cover (i : S16384x512.Idx) :
    ∃ t : Fin cfg0.N, (cfg0.win 11).flush t = true ∧ i ∈ ((cfg0.win 11).blk t).view.set := by
  have hi0 : (i 0).val < 16384 := (i 0).isLt
  have hi1 : (i 1).val < 512 := (i 1).isLt
  obtain ⟨t, ht⟩ := idx_onto ⟨(i 0).val / 1024, by omega⟩
  have q0 : win0_11.index t (0 : Fin 2) = (i 0).val / 1024 := congrFun ht 0
  have q1 : win0_11.index t (1 : Fin 2) = 0 := congrFun ht 1
  refine ⟨t, flush0_11 t, ?_⟩
  rw [mem_blk]
  intro a
  match a with
  | ⟨0, _⟩ => show win0_11.index t (0 : Fin 2) * 1024 ≤ (i 0).val ∧ (i 0).val < win0_11.index t (0 : Fin 2) * 1024 + 1024; omega
  | ⟨1, _⟩ => show win0_11.index t (1 : Fin 2) * 512 ≤ (i 1).val ∧ (i 1).val < win0_11.index t (1 : Fin 2) * 512 + 512; omega

/-- The result array after the run is the cell. -/
theorem final (c : Dev nD) : (dats m 0 c).arrAt 11 cfg0.N = result m c :=
  (dats m 0 c).arrAt_eq_of_cover 11 (result m c) (fun t _ => flushed_eq m c t) cover

/-- The kernel's run: it ends with the result array at the cell of the arguments, the arguments unchanged. -/
theorem run : θ_run defs (onTc (τ := τ) (main (F := Ideal))) ⟨m, fun _ => 0, ρ⟩ fun r => ∀ c : Dev nD,
      r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Cert.KernelIdeal.Value.run_blocks m ρ)

end Cert.Ltc.Arr

end
-- ==== Proof.lean ====
/-
  A liquid-time-constant cell, one fused kernel against its plain reference, equal on the extended reals.

  Both programs compute, for every batch row `r` of 16384 and hidden unit `q` of 512,

      (σ(g r q) · tanh(g r (512+q)) − h r q) / (softplus(τ r q) + softplus(cm q) + softplus(gleak q) + ε),

  where `g = [x | h | context] · Wᵀ + b` has 1024 columns and `τ = h · Wtᵀ + bt`.

  The reference joins the three inputs into one 896-column row and multiplies once by the transposed weight matrix.
  The kernel never joins them: outside the kernel the weight matrix is cut into its three column stretches, each
  transposed, and inside it three products — over 128, 512 and 256 columns — are added.  A sum over 896 columns is
  the sum of its three stretches; that is the only law of arithmetic the equality needs, and it holds for any
  extended reals, so the assumption that the inputs are finite is never opened.  The rest is spelling: the kernel's
  one logistic operation against the reference's `1 / (1 + exp (−·))`, which is how the logistic function is
  defined; `0 − |d|` against `−|d|` inside softplus; an ordered against an unordered "not equal" in a guard that
  compares a number with itself; a change of float format on the way into the matrix unit, which is the identity on
  extended reals; and a kernel that walks the batch in 16 blocks of 1024 rows, which together cover it.

  The three frames are the generated ones (the reference's is its generated run with the result dropped); the
  kernel's idealization rewrote nothing, so that conjunct is `True`.
-/
import proofs.«144077_j28389733827178_1_alg».proof.Defs
import proofs.«144077_j28389733827178_1_alg».proof.Proof.Gen.Kernel
import proofs.«144077_j28389733827178_1_alg».proof.Proof.Gen.Kernel.Frame
import proofs.«144077_j28389733827178_1_alg».proof.Proof.Gen.KernelIdeal
import proofs.«144077_j28389733827178_1_alg».proof.Proof.Gen.KernelIdeal.Frame
import proofs.«144077_j28389733827178_1_alg».proof.Proof.Gen.KernelIdeal.Value
import proofs.«144077_j28389733827178_1_alg».proof.Proof.Gen.ReferenceIdeal
import proofs.«144077_j28389733827178_1_alg».proof.Proof.Gen.ReferenceIdeal.Run
import proofs.«144077_j28389733827178_1_alg».proof.Proof.Gen.ReferenceIdeal.Read
import proofs.«144077_j28389733827178_1_alg».proof.Proof.Gen.Pre_finite_inputs
import proofs.«144077_j28389733827178_1_alg».proof.Proof.LtcRef
import proofs.«144077_j28389733827178_1_alg».proof.Proof.LtcArray
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference has no kernel to launch: its frame is its run, the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- Reading the kernel over the extended reals rewrote no operation. -/
theorem preserves : Cert.preserves_Kernel_KernelIdeal := trivial

/-- From memories that agree on the arguments the kernel's result array ends at the cell of its arguments, and the
    reference's at the cell of its own: one array. -/
theorem algebraic : Cert.algebraic_KernelIdeal_ReferenceIdeal := by
  intro m ρ m' ρ' _ hagree
  refine ⟨fun c => Cert.Ltc.Arr.result m c, Cert.Ltc.Arr.run m ρ, ?_⟩
  refine (θ_run Cert.ReferenceIdeal.defs _ _).mono (fun _ h c => ⟨(h c).1.trans ?_, (h c).2⟩)
    (Cert.ReferenceIdeal.Value.run (F := Ideal) m' ρ')
  obtain ⟨-, h1, h2, h3, h4, h5, h6, h7, h8, h9⟩ := hagree c
  rw [Cert.ReferenceIdeal.Read.val_main_v33_eq, Cert.Ltc.Ref.result_eq, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
